-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S4096x4096x1 : Shape := ⟨3, ![4096, 4096, 1]⟩
abbrev S4096x2048x2x1 : Shape := ⟨4, ![4096, 2048, 2, 1]⟩
abbrev S4096x2048x1x1 : Shape := ⟨4, ![4096, 2048, 1, 1]⟩
abbrev S4096x2048x1 : Shape := ⟨3, ![4096, 2048, 1]⟩
abbrev S4096x2048x2 : Shape := ⟨3, ![4096, 2048, 2]⟩
abbrev S4096x1024x2x2 : Shape := ⟨4, ![4096, 1024, 2, 2]⟩
abbrev S4096x1024x1x2 : Shape := ⟨4, ![4096, 1024, 1, 2]⟩
abbrev S4096x1024x2 : Shape := ⟨3, ![4096, 1024, 2]⟩
abbrev S4096x1024x4 : Shape := ⟨3, ![4096, 1024, 4]⟩
abbrev S4096x512x2x4 : Shape := ⟨4, ![4096, 512, 2, 4]⟩
abbrev S4096x512x1x4 : Shape := ⟨4, ![4096, 512, 1, 4]⟩
abbrev S4096x512x4 : Shape := ⟨3, ![4096, 512, 4]⟩
abbrev S4096x512x8 : Shape := ⟨3, ![4096, 512, 8]⟩
abbrev S4096x256x2x8 : Shape := ⟨4, ![4096, 256, 2, 8]⟩
abbrev S4096x256x1x8 : Shape := ⟨4, ![4096, 256, 1, 8]⟩
abbrev S4096x256x8 : Shape := ⟨3, ![4096, 256, 8]⟩
abbrev S4096x256x16 : Shape := ⟨3, ![4096, 256, 16]⟩
abbrev S4096x128x2x16 : Shape := ⟨4, ![4096, 128, 2, 16]⟩
abbrev S4096x128x1x16 : Shape := ⟨4, ![4096, 128, 1, 16]⟩
abbrev S4096x128x16 : Shape := ⟨3, ![4096, 128, 16]⟩
abbrev S4096x128x32 : Shape := ⟨3, ![4096, 128, 32]⟩
abbrev S4096x64x2x32 : Shape := ⟨4, ![4096, 64, 2, 32]⟩
abbrev S4096x64x1x32 : Shape := ⟨4, ![4096, 64, 1, 32]⟩
abbrev S4096x64x32 : Shape := ⟨3, ![4096, 64, 32]⟩
abbrev S4096x64x64 : Shape := ⟨3, ![4096, 64, 64]⟩
abbrev S4096x32x2x64 : Shape := ⟨4, ![4096, 32, 2, 64]⟩
abbrev S4096x32x1x64 : Shape := ⟨4, ![4096, 32, 1, 64]⟩
abbrev S4096x32x64 : Shape := ⟨3, ![4096, 32, 64]⟩
abbrev S4096x32x128 : Shape := ⟨3, ![4096, 32, 128]⟩
abbrev S4096x16x2x128 : Shape := ⟨4, ![4096, 16, 2, 128]⟩
abbrev S4096x16x1x128 : Shape := ⟨4, ![4096, 16, 1, 128]⟩
abbrev S4096x16x128 : Shape := ⟨3, ![4096, 16, 128]⟩
abbrev S4096x16x256 : Shape := ⟨3, ![4096, 16, 256]⟩
abbrev S4096x8x2x256 : Shape := ⟨4, ![4096, 8, 2, 256]⟩
abbrev S4096x8x1x256 : Shape := ⟨4, ![4096, 8, 1, 256]⟩
abbrev S4096x8x256 : Shape := ⟨3, ![4096, 8, 256]⟩
abbrev S4096x8x512 : Shape := ⟨3, ![4096, 8, 512]⟩
abbrev S4096x4x2x512 : Shape := ⟨4, ![4096, 4, 2, 512]⟩
abbrev S4096x4x1x512 : Shape := ⟨4, ![4096, 4, 1, 512]⟩
abbrev S4096x4x512 : Shape := ⟨3, ![4096, 4, 512]⟩
abbrev S4096x4x1024 : Shape := ⟨3, ![4096, 4, 1024]⟩
abbrev S4096x2x2x1024 : Shape := ⟨4, ![4096, 2, 2, 1024]⟩
abbrev S4096x2x1x1024 : Shape := ⟨4, ![4096, 2, 1, 1024]⟩
abbrev S4096x2x1024 : Shape := ⟨3, ![4096, 2, 1024]⟩
abbrev S4096x2x2048 : Shape := ⟨3, ![4096, 2, 2048]⟩
abbrev S4096x1x2x2048 : Shape := ⟨4, ![4096, 1, 2, 2048]⟩
abbrev S4096x1x1x2048 : Shape := ⟨4, ![4096, 1, 1, 2048]⟩
abbrev S4096x1x2048 : Shape := ⟨3, ![4096, 1, 2048]⟩
abbrev S4096x1x4096 : Shape := ⟨3, ![4096, 1, 4096]⟩
abbrev S_ : Shape := ⟨0, ![]⟩
abbrev S1x4096 : Shape := ⟨2, ![1, 4096]⟩
abbrev S256x4096 : Shape := ⟨2, ![256, 4096]⟩

abbrev nBuf : Space → Nat
  | .hbm => 111
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S4096x4096x1, .f32⟩
  | .hbm, ⟨5, _⟩ => ⟨S4096x2048x2x1, .f32⟩
  | .hbm, ⟨6, _⟩ => ⟨S4096x2048x1x1, .f32⟩
  | .hbm, ⟨7, _⟩ => ⟨S4096x2048x1, .f32⟩
  | .hbm, ⟨8, _⟩ => ⟨S4096x2048x1x1, .f32⟩
  | .hbm, ⟨9, _⟩ => ⟨S4096x2048x1, .f32⟩
  | .hbm, ⟨10, _⟩ => ⟨S4096x2048x1, .f32⟩
  | .hbm, ⟨11, _⟩ => ⟨S4096x2048x1, .f32⟩
  | .hbm, ⟨12, _⟩ => ⟨S4096x2048x2, .f32⟩
  | .hbm, ⟨13, _⟩ => ⟨S4096x1024x2x2, .f32⟩
  | .hbm, ⟨14, _⟩ => ⟨S4096x1024x1x2, .f32⟩
  | .hbm, ⟨15, _⟩ => ⟨S4096x1024x2, .f32⟩
  | .hbm, ⟨16, _⟩ => ⟨S4096x1024x1x2, .f32⟩
  | .hbm, ⟨17, _⟩ => ⟨S4096x1024x2, .f32⟩
  | .hbm, ⟨18, _⟩ => ⟨S4096x1024x2, .f32⟩
  | .hbm, ⟨19, _⟩ => ⟨S4096x1024x2, .f32⟩
  | .hbm, ⟨20, _⟩ => ⟨S4096x1024x4, .f32⟩
  | .hbm, ⟨21, _⟩ => ⟨S4096x512x2x4, .f32⟩
  | .hbm, ⟨22, _⟩ => ⟨S4096x512x1x4, .f32⟩
  | .hbm, ⟨23, _⟩ => ⟨S4096x512x4, .f32⟩
  | .hbm, ⟨24, _⟩ => ⟨S4096x512x1x4, .f32⟩
  | .hbm, ⟨25, _⟩ => ⟨S4096x512x4, .f32⟩
  | .hbm, ⟨26, _⟩ => ⟨S4096x512x4, .f32⟩
  | .hbm, ⟨27, _⟩ => ⟨S4096x512x4, .f32⟩
  | .hbm, ⟨28, _⟩ => ⟨S4096x512x8, .f32⟩
  | .hbm, ⟨29, _⟩ => ⟨S4096x256x2x8, .f32⟩
  | .hbm, ⟨30, _⟩ => ⟨S4096x256x1x8, .f32⟩
  | .hbm, ⟨31, _⟩ => ⟨S4096x256x8, .f32⟩
  | .hbm, ⟨32, _⟩ => ⟨S4096x256x1x8, .f32⟩
  | .hbm, ⟨33, _⟩ => ⟨S4096x256x8, .f32⟩
  | .hbm, ⟨34, _⟩ => ⟨S4096x256x8, .f32⟩
  | .hbm, ⟨35, _⟩ => ⟨S4096x256x8, .f32⟩
  | .hbm, ⟨36, _⟩ => ⟨S4096x256x16, .f32⟩
  | .hbm, ⟨37, _⟩ => ⟨S4096x128x2x16, .f32⟩
  | .hbm, ⟨38, _⟩ => ⟨S4096x128x1x16, .f32⟩
  | .hbm, ⟨39, _⟩ => ⟨S4096x128x16, .f32⟩
  | .hbm, ⟨40, _⟩ => ⟨S4096x128x1x16, .f32⟩
  | .hbm, ⟨41, _⟩ => ⟨S4096x128x16, .f32⟩
  | .hbm, ⟨42, _⟩ => ⟨S4096x128x16, .f32⟩
  | .hbm, ⟨43, _⟩ => ⟨S4096x128x16, .f32⟩
  | .hbm, ⟨44, _⟩ => ⟨S4096x128x32, .f32⟩
  | .hbm, ⟨45, _⟩ => ⟨S4096x64x2x32, .f32⟩
  | .hbm, ⟨46, _⟩ => ⟨S4096x64x1x32, .f32⟩
  | .hbm, ⟨47, _⟩ => ⟨S4096x64x32, .f32⟩
  | .hbm, ⟨48, _⟩ => ⟨S4096x64x1x32, .f32⟩
  | .hbm, ⟨49, _⟩ => ⟨S4096x64x32, .f32⟩
  | .hbm, ⟨50, _⟩ => ⟨S4096x64x32, .f32⟩
  | .hbm, ⟨51, _⟩ => ⟨S4096x64x32, .f32⟩
  | .hbm, ⟨52, _⟩ => ⟨S4096x64x64, .f32⟩
  | .hbm, ⟨53, _⟩ => ⟨S4096x32x2x64, .f32⟩
  | .hbm, ⟨54, _⟩ => ⟨S4096x32x1x64, .f32⟩
  | .hbm, ⟨55, _⟩ => ⟨S4096x32x64, .f32⟩
  | .hbm, ⟨56, _⟩ => ⟨S4096x32x1x64, .f32⟩
  | .hbm, ⟨57, _⟩ => ⟨S4096x32x64, .f32⟩
  | .hbm, ⟨58, _⟩ => ⟨S4096x32x64, .f32⟩
  | .hbm, ⟨59, _⟩ => ⟨S4096x32x64, .f32⟩
  | .hbm, ⟨60, _⟩ => ⟨S4096x32x128, .f32⟩
  | .hbm, ⟨61, _⟩ => ⟨S4096x16x2x128, .f32⟩
  | .hbm, ⟨62, _⟩ => ⟨S4096x16x1x128, .f32⟩
  | .hbm, ⟨63, _⟩ => ⟨S4096x16x128, .f32⟩
  | .hbm, ⟨64, _⟩ => ⟨S4096x16x1x128, .f32⟩
  | .hbm, ⟨65, _⟩ => ⟨S4096x16x128, .f32⟩
  | .hbm, ⟨66, _⟩ => ⟨S4096x16x128, .f32⟩
  | .hbm, ⟨67, _⟩ => ⟨S4096x16x128, .f32⟩
  | .hbm, ⟨68, _⟩ => ⟨S4096x16x256, .f32⟩
  | .hbm, ⟨69, _⟩ => ⟨S4096x8x2x256, .f32⟩
  | .hbm, ⟨70, _⟩ => ⟨S4096x8x1x256, .f32⟩
  | .hbm, ⟨71, _⟩ => ⟨S4096x8x256, .f32⟩
  | .hbm, ⟨72, _⟩ => ⟨S4096x8x1x256, .f32⟩
  | .hbm, ⟨73, _⟩ => ⟨S4096x8x256, .f32⟩
  | .hbm, ⟨74, _⟩ => ⟨S4096x8x256, .f32⟩
  | .hbm, ⟨75, _⟩ => ⟨S4096x8x256, .f32⟩
  | .hbm, ⟨76, _⟩ => ⟨S4096x8x512, .f32⟩
  | .hbm, ⟨77, _⟩ => ⟨S4096x4x2x512, .f32⟩
  | .hbm, ⟨78, _⟩ => ⟨S4096x4x1x512, .f32⟩
  | .hbm, ⟨79, _⟩ => ⟨S4096x4x512, .f32⟩
  | .hbm, ⟨80, _⟩ => ⟨S4096x4x1x512, .f32⟩
  | .hbm, ⟨81, _⟩ => ⟨S4096x4x512, .f32⟩
  | .hbm, ⟨82, _⟩ => ⟨S4096x4x512, .f32⟩
  | .hbm, ⟨83, _⟩ => ⟨S4096x4x512, .f32⟩
  | .hbm, ⟨84, _⟩ => ⟨S4096x4x1024, .f32⟩
  | .hbm, ⟨85, _⟩ => ⟨S4096x2x2x1024, .f32⟩
  | .hbm, ⟨86, _⟩ => ⟨S4096x2x1x1024, .f32⟩
  | .hbm, ⟨87, _⟩ => ⟨S4096x2x1024, .f32⟩
  | .hbm, ⟨88, _⟩ => ⟨S4096x2x1x1024, .f32⟩
  | .hbm, ⟨89, _⟩ => ⟨S4096x2x1024, .f32⟩
  | .hbm, ⟨90, _⟩ => ⟨S4096x2x1024, .f32⟩
  | .hbm, ⟨91, _⟩ => ⟨S4096x2x1024, .f32⟩
  | .hbm, ⟨92, _⟩ => ⟨S4096x2x2048, .f32⟩
  | .hbm, ⟨93, _⟩ => ⟨S4096x1x2x2048, .f32⟩
  | .hbm, ⟨94, _⟩ => ⟨S4096x1x1x2048, .f32⟩
  | .hbm, ⟨95, _⟩ => ⟨S4096x1x2048, .f32⟩
  | .hbm, ⟨96, _⟩ => ⟨S4096x1x1x2048, .f32⟩
  | .hbm, ⟨97, _⟩ => ⟨S4096x1x2048, .f32⟩
  | .hbm, ⟨98, _⟩ => ⟨S4096x1x2048, .f32⟩
  | .hbm, ⟨99, _⟩ => ⟨S4096x1x2048, .f32⟩
  | .hbm, ⟨100, _⟩ => ⟨S4096x1x4096, .f32⟩
  | .hbm, ⟨101, _⟩ => ⟨S4096x4096, .f32⟩
  | .hbm, ⟨102, _⟩ => ⟨S_, .f32⟩
  | .hbm, ⟨103, _⟩ => ⟨S_, .f32⟩
  | .hbm, ⟨104, _⟩ => ⟨S4096x4096, .f32⟩
  | .hbm, ⟨105, _⟩ => ⟨S4096x4096, .f32⟩
  | .hbm, ⟨106, _⟩ => ⟨S4096x4096, .f32⟩
  | .hbm, ⟨107, _⟩ => ⟨S4096x4096, .bf16⟩
  | .hbm, ⟨108, _⟩ => ⟨S1x4096, .f32⟩
  | .hbm, ⟨109, _⟩ => ⟨S8192x4096, .f32⟩
  | .hbm, ⟨110, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S4096x4096, .bf16⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_v81 : Ref sig .tc := ⟨.hbm, 84, rfl⟩
abbrev main_v82 : Ref sig .tc := ⟨.hbm, 85, rfl⟩
abbrev main_v83 : Ref sig .tc := ⟨.hbm, 86, rfl⟩
abbrev main_v84 : Ref sig .tc := ⟨.hbm, 87, rfl⟩
abbrev main_v85 : Ref sig .tc := ⟨.hbm, 88, rfl⟩
abbrev main_v86 : Ref sig .tc := ⟨.hbm, 89, rfl⟩
abbrev main_v87 : Ref sig .tc := ⟨.hbm, 90, rfl⟩
abbrev main_v88 : Ref sig .tc := ⟨.hbm, 91, rfl⟩
abbrev main_v89 : Ref sig .tc := ⟨.hbm, 92, rfl⟩
abbrev main_v90 : Ref sig .tc := ⟨.hbm, 93, rfl⟩
abbrev main_v91 : Ref sig .tc := ⟨.hbm, 94, rfl⟩
abbrev main_v92 : Ref sig .tc := ⟨.hbm, 95, rfl⟩
abbrev main_v93 : Ref sig .tc := ⟨.hbm, 96, rfl⟩
abbrev main_v94 : Ref sig .tc := ⟨.hbm, 97, rfl⟩
abbrev main_v95 : Ref sig .tc := ⟨.hbm, 98, rfl⟩
abbrev main_v96 : Ref sig .tc := ⟨.hbm, 99, rfl⟩
abbrev main_v97 : Ref sig .tc := ⟨.hbm, 100, rfl⟩
abbrev main_v98 : Ref sig .tc := ⟨.hbm, 101, rfl⟩
abbrev main_cst : Ref sig .tc := ⟨.hbm, 102, rfl⟩
abbrev main_v99 : Ref sig .tc := ⟨.hbm, 103, rfl⟩
abbrev main_v100 : Ref sig .tc := ⟨.hbm, 104, rfl⟩
abbrev main_v101 : Ref sig .tc := ⟨.hbm, 105, rfl⟩
abbrev main_v102 : Ref sig .tc := ⟨.hbm, 106, rfl⟩
abbrev main_v103 : Ref sig .tc := ⟨.hbm, 107, rfl⟩
abbrev main_v104 : Ref sig .tc := ⟨.hbm, 108, rfl⟩
abbrev main_v105 : Ref sig .tc := ⟨.hbm, 109, rfl⟩
abbrev main_v106 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x2048x4096_S8192x4096 : S4x2048x4096.ShapeCasts S8192x4096
  shapeCasts_S4096x4096_S4096x4096x1 : S4096x4096.ShapeCasts S4096x4096x1
  shapeCasts_S4096x4096x1_S4096x2048x2x1 : S4096x4096x1.ShapeCasts S4096x2048x2x1
  slices_S4096x2048x2x1_S4096x2048x1x1_0_0_0_0 : S4096x2048x2x1.Slices ![0, 0, 0, 0] S4096x2048x1x1
  shapeCasts_S4096x2048x1x1_S4096x2048x1 : S4096x2048x1x1.ShapeCasts S4096x2048x1
  slices_S4096x2048x2x1_S4096x2048x1x1_0_0_1_0 : S4096x2048x2x1.Slices ![0, 0, 1, 0] S4096x2048x1x1
  concatenates_S4096x2048x1_S4096x2048x1_S4096x2048x2_d2 : Shape.Concatenates [S4096x2048x1, S4096x2048x1] S4096x2048x2 2
  shapeCasts_S4096x2048x2_S4096x1024x2x2 : S4096x2048x2.ShapeCasts S4096x1024x2x2
  slices_S4096x1024x2x2_S4096x1024x1x2_0_0_0_0 : S4096x1024x2x2.Slices ![0, 0, 0, 0] S4096x1024x1x2
  shapeCasts_S4096x1024x1x2_S4096x1024x2 : S4096x1024x1x2.ShapeCasts S4096x1024x2
  slices_S4096x1024x2x2_S4096x1024x1x2_0_0_1_0 : S4096x1024x2x2.Slices ![0, 0, 1, 0] S4096x1024x1x2
  concatenates_S4096x1024x2_S4096x1024x2_S4096x1024x4_d2 : Shape.Concatenates [S4096x1024x2, S4096x1024x2] S4096x1024x4 2
  shapeCasts_S4096x1024x4_S4096x512x2x4 : S4096x1024x4.ShapeCasts S4096x512x2x4
  slices_S4096x512x2x4_S4096x512x1x4_0_0_0_0 : S4096x512x2x4.Slices ![0, 0, 0, 0] S4096x512x1x4
  shapeCasts_S4096x512x1x4_S4096x512x4 : S4096x512x1x4.ShapeCasts S4096x512x4
  slices_S4096x512x2x4_S4096x512x1x4_0_0_1_0 : S4096x512x2x4.Slices ![0, 0, 1, 0] S4096x512x1x4
  concatenates_S4096x512x4_S4096x512x4_S4096x512x8_d2 : Shape.Concatenates [S4096x512x4, S4096x512x4] S4096x512x8 2
  shapeCasts_S4096x512x8_S4096x256x2x8 : S4096x512x8.ShapeCasts S4096x256x2x8
  slices_S4096x256x2x8_S4096x256x1x8_0_0_0_0 : S4096x256x2x8.Slices ![0, 0, 0, 0] S4096x256x1x8
  shapeCasts_S4096x256x1x8_S4096x256x8 : S4096x256x1x8.ShapeCasts S4096x256x8
  slices_S4096x256x2x8_S4096x256x1x8_0_0_1_0 : S4096x256x2x8.Slices ![0, 0, 1, 0] S4096x256x1x8
  concatenates_S4096x256x8_S4096x256x8_S4096x256x16_d2 : Shape.Concatenates [S4096x256x8, S4096x256x8] S4096x256x16 2
  shapeCasts_S4096x256x16_S4096x128x2x16 : S4096x256x16.ShapeCasts S4096x128x2x16
  slices_S4096x128x2x16_S4096x128x1x16_0_0_0_0 : S4096x128x2x16.Slices ![0, 0, 0, 0] S4096x128x1x16
  shapeCasts_S4096x128x1x16_S4096x128x16 : S4096x128x1x16.ShapeCasts S4096x128x16
  slices_S4096x128x2x16_S4096x128x1x16_0_0_1_0 : S4096x128x2x16.Slices ![0, 0, 1, 0] S4096x128x1x16
  concatenates_S4096x128x16_S4096x128x16_S4096x128x32_d2 : Shape.Concatenates [S4096x128x16, S4096x128x16] S4096x128x32 2
  shapeCasts_S4096x128x32_S4096x64x2x32 : S4096x128x32.ShapeCasts S4096x64x2x32
  slices_S4096x64x2x32_S4096x64x1x32_0_0_0_0 : S4096x64x2x32.Slices ![0, 0, 0, 0] S4096x64x1x32
  shapeCasts_S4096x64x1x32_S4096x64x32 : S4096x64x1x32.ShapeCasts S4096x64x32
  slices_S4096x64x2x32_S4096x64x1x32_0_0_1_0 : S4096x64x2x32.Slices ![0, 0, 1, 0] S4096x64x1x32
  concatenates_S4096x64x32_S4096x64x32_S4096x64x64_d2 : Shape.Concatenates [S4096x64x32, S4096x64x32] S4096x64x64 2
  shapeCasts_S4096x64x64_S4096x32x2x64 : S4096x64x64.ShapeCasts S4096x32x2x64
  slices_S4096x32x2x64_S4096x32x1x64_0_0_0_0 : S4096x32x2x64.Slices ![0, 0, 0, 0] S4096x32x1x64
  shapeCasts_S4096x32x1x64_S4096x32x64 : S4096x32x1x64.ShapeCasts S4096x32x64
  slices_S4096x32x2x64_S4096x32x1x64_0_0_1_0 : S4096x32x2x64.Slices ![0, 0, 1, 0] S4096x32x1x64
  concatenates_S4096x32x64_S4096x32x64_S4096x32x128_d2 : Shape.Concatenates [S4096x32x64, S4096x32x64] S4096x32x128 2
  shapeCasts_S4096x32x128_S4096x16x2x128 : S4096x32x128.ShapeCasts S4096x16x2x128
  slices_S4096x16x2x128_S4096x16x1x128_0_0_0_0 : S4096x16x2x128.Slices ![0, 0, 0, 0] S4096x16x1x128
  shapeCasts_S4096x16x1x128_S4096x16x128 : S4096x16x1x128.ShapeCasts S4096x16x128
  slices_S4096x16x2x128_S4096x16x1x128_0_0_1_0 : S4096x16x2x128.Slices ![0, 0, 1, 0] S4096x16x1x128
  concatenates_S4096x16x128_S4096x16x128_S4096x16x256_d2 : Shape.Concatenates [S4096x16x128, S4096x16x128] S4096x16x256 2
  shapeCasts_S4096x16x256_S4096x8x2x256 : S4096x16x256.ShapeCasts S4096x8x2x256
  slices_S4096x8x2x256_S4096x8x1x256_0_0_0_0 : S4096x8x2x256.Slices ![0, 0, 0, 0] S4096x8x1x256
  shapeCasts_S4096x8x1x256_S4096x8x256 : S4096x8x1x256.ShapeCasts S4096x8x256
  slices_S4096x8x2x256_S4096x8x1x256_0_0_1_0 : S4096x8x2x256.Slices ![0, 0, 1, 0] S4096x8x1x256
  concatenates_S4096x8x256_S4096x8x256_S4096x8x512_d2 : Shape.Concatenates [S4096x8x256, S4096x8x256] S4096x8x512 2
  shapeCasts_S4096x8x512_S4096x4x2x512 : S4096x8x512.ShapeCasts S4096x4x2x512
  slices_S4096x4x2x512_S4096x4x1x512_0_0_0_0 : S4096x4x2x512.Slices ![0, 0, 0, 0] S4096x4x1x512
  shapeCasts_S4096x4x1x512_S4096x4x512 : S4096x4x1x512.ShapeCasts S4096x4x512
  slices_S4096x4x2x512_S4096x4x1x512_0_0_1_0 : S4096x4x2x512.Slices ![0, 0, 1, 0] S4096x4x1x512
  concatenates_S4096x4x512_S4096x4x512_S4096x4x1024_d2 : Shape.Concatenates [S4096x4x512, S4096x4x512] S4096x4x1024 2
  shapeCasts_S4096x4x1024_S4096x2x2x1024 : S4096x4x1024.ShapeCasts S4096x2x2x1024
  slices_S4096x2x2x1024_S4096x2x1x1024_0_0_0_0 : S4096x2x2x1024.Slices ![0, 0, 0, 0] S4096x2x1x1024
  shapeCasts_S4096x2x1x1024_S4096x2x1024 : S4096x2x1x1024.ShapeCasts S4096x2x1024
  slices_S4096x2x2x1024_S4096x2x1x1024_0_0_1_0 : S4096x2x2x1024.Slices ![0, 0, 1, 0] S4096x2x1x1024
  concatenates_S4096x2x1024_S4096x2x1024_S4096x2x2048_d2 : Shape.Concatenates [S4096x2x1024, S4096x2x1024] S4096x2x2048 2
  shapeCasts_S4096x2x2048_S4096x1x2x2048 : S4096x2x2048.ShapeCasts S4096x1x2x2048
  slices_S4096x1x2x2048_S4096x1x1x2048_0_0_0_0 : S4096x1x2x2048.Slices ![0, 0, 0, 0] S4096x1x1x2048
  shapeCasts_S4096x1x1x2048_S4096x1x2048 : S4096x1x1x2048.ShapeCasts S4096x1x2048
  slices_S4096x1x2x2048_S4096x1x1x2048_0_0_1_0 : S4096x1x2x2048.Slices ![0, 0, 1, 0] S4096x1x1x2048
  concatenates_S4096x1x2048_S4096x1x2048_S4096x1x4096_d2 : Shape.Concatenates [S4096x1x2048, S4096x1x2048] S4096x1x4096 2
  shapeCasts_S4096x1x4096_S4096x4096 : S4096x1x4096.ShapeCasts S4096x4096
  bcast_S_S4096x4096 : S_.BroadcastsInDim S4096x4096 (![] : Fin 0 → Fin S4096x4096.rank)
  transposes_S4096x4096_S4096x4096_1_0 : S4096x4096.Transposes [1, 0] S4096x4096
  bitsLt_bf16_f32 : FTy.bits .bf16 < FTy.bits .f32
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  shapeCasts_S8192x4096_S4x2048x4096 : S8192x4096.ShapeCasts S4x2048x4096
  dot_S256x4096_S4096x4096_S256x4096_1_0_0_1_n_n_wf : DotDims.WF S256x4096 S4096x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S8192x4096.size a
  hwx0_3 : ∀ i : grid0.Coords, EltTy.bits .f32 = 32 ∨ (Rect.block (s := S8192x4096) S256x4096.size (cc0_transform_3 i) (hinb0_3 i)).WholeWords (EltTy.packing .f32)

variable [Facts₀]

def dot_S256x4096_S4096x4096_S256x4096_1_0_0_1_n_n : DotDims S256x4096 S4096x4096 S256x4096 where
  lhsContracting := [1]
  rhsContracting := [0]
  lhsNonContracting := [0]
  rhsNonContracting := [1]
  lhsBatch := []
  rhsBatch := []
  wf := dot_S256x4096_S4096x4096_S256x4096_1_0_0_1_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v103) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v104) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v105) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S8192x4096x1 : Shape := ⟨3, ![8192, 4096, 1]⟩
abbrev S8192x2048x2x1 : Shape := ⟨4, ![8192, 2048, 2, 1]⟩
abbrev S8192x2048x1x1 : Shape := ⟨4, ![8192, 2048, 1, 1]⟩
abbrev S8192x2048x1 : Shape := ⟨3, ![8192, 2048, 1]⟩
abbrev S8192x2048x2 : Shape := ⟨3, ![8192, 2048, 2]⟩
abbrev S8192x1024x2x2 : Shape := ⟨4, ![8192, 1024, 2, 2]⟩
abbrev S8192x1024x1x2 : Shape := ⟨4, ![8192, 1024, 1, 2]⟩
abbrev S8192x1024x2 : Shape := ⟨3, ![8192, 1024, 2]⟩
abbrev S8192x1024x4 : Shape := ⟨3, ![8192, 1024, 4]⟩
abbrev S8192x512x2x4 : Shape := ⟨4, ![8192, 512, 2, 4]⟩
abbrev S8192x512x1x4 : Shape := ⟨4, ![8192, 512, 1, 4]⟩
abbrev S8192x512x4 : Shape := ⟨3, ![8192, 512, 4]⟩
abbrev S8192x512x8 : Shape := ⟨3, ![8192, 512, 8]⟩
abbrev S8192x256x2x8 : Shape := ⟨4, ![8192, 256, 2, 8]⟩
abbrev S8192x256x1x8 : Shape := ⟨4, ![8192, 256, 1, 8]⟩
abbrev S8192x256x8 : Shape := ⟨3, ![8192, 256, 8]⟩
abbrev S8192x256x16 : Shape := ⟨3, ![8192, 256, 16]⟩
abbrev S8192x128x2x16 : Shape := ⟨4, ![8192, 128, 2, 16]⟩
abbrev S8192x128x1x16 : Shape := ⟨4, ![8192, 128, 1, 16]⟩
abbrev S8192x128x16 : Shape := ⟨3, ![8192, 128, 16]⟩
abbrev S8192x128x32 : Shape := ⟨3, ![8192, 128, 32]⟩
abbrev S8192x64x2x32 : Shape := ⟨4, ![8192, 64, 2, 32]⟩
abbrev S8192x64x1x32 : Shape := ⟨4, ![8192, 64, 1, 32]⟩
abbrev S8192x64x32 : Shape := ⟨3, ![8192, 64, 32]⟩
abbrev S8192x64x64 : Shape := ⟨3, ![8192, 64, 64]⟩
abbrev S8192x32x2x64 : Shape := ⟨4, ![8192, 32, 2, 64]⟩
abbrev S8192x32x1x64 : Shape := ⟨4, ![8192, 32, 1, 64]⟩
abbrev S8192x32x64 : Shape := ⟨3, ![8192, 32, 64]⟩
abbrev S8192x32x128 : Shape := ⟨3, ![8192, 32, 128]⟩
abbrev S8192x16x2x128 : Shape := ⟨4, ![8192, 16, 2, 128]⟩
abbrev S8192x16x1x128 : Shape := ⟨4, ![8192, 16, 1, 128]⟩
abbrev S8192x16x128 : Shape := ⟨3, ![8192, 16, 128]⟩
abbrev S8192x16x256 : Shape := ⟨3, ![8192, 16, 256]⟩
abbrev S8192x8x2x256 : Shape := ⟨4, ![8192, 8, 2, 256]⟩
abbrev S8192x8x1x256 : Shape := ⟨4, ![8192, 8, 1, 256]⟩
abbrev S8192x8x256 : Shape := ⟨3, ![8192, 8, 256]⟩
abbrev S8192x8x512 : Shape := ⟨3, ![8192, 8, 512]⟩
abbrev S8192x4x2x512 : Shape := ⟨4, ![8192, 4, 2, 512]⟩
abbrev S8192x4x1x512 : Shape := ⟨4, ![8192, 4, 1, 512]⟩
abbrev S8192x4x512 : Shape := ⟨3, ![8192, 4, 512]⟩
abbrev S8192x4x1024 : Shape := ⟨3, ![8192, 4, 1024]⟩
abbrev S8192x2x2x1024 : Shape := ⟨4, ![8192, 2, 2, 1024]⟩
abbrev S8192x2x1x1024 : Shape := ⟨4, ![8192, 2, 1, 1024]⟩
abbrev S8192x2x1024 : Shape := ⟨3, ![8192, 2, 1024]⟩
abbrev S8192x2x2048 : Shape := ⟨3, ![8192, 2, 2048]⟩
abbrev S8192x1x2x2048 : Shape := ⟨4, ![8192, 1, 2, 2048]⟩
abbrev S8192x1x1x2048 : Shape := ⟨4, ![8192, 1, 1, 2048]⟩
abbrev S8192x1x2048 : Shape := ⟨3, ![8192, 1, 2048]⟩
abbrev S8192x1x4096 : Shape := ⟨3, ![8192, 1, 4096]⟩
abbrev S_ : Shape := ⟨0, ![]⟩
abbrev S1x1x4096 : Shape := ⟨3, ![1, 1, 4096]⟩

abbrev nBuf : Space → Nat
  | .hbm => 109
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8192x4096x1, .f32⟩
  | .hbm, ⟨4, _⟩ => ⟨S8192x2048x2x1, .f32⟩
  | .hbm, ⟨5, _⟩ => ⟨S8192x2048x1x1, .f32⟩
  | .hbm, ⟨6, _⟩ => ⟨S8192x2048x1, .f32⟩
  | .hbm, ⟨7, _⟩ => ⟨S8192x2048x1x1, .f32⟩
  | .hbm, ⟨8, _⟩ => ⟨S8192x2048x1, .f32⟩
  | .hbm, ⟨9, _⟩ => ⟨S8192x2048x1, .f32⟩
  | .hbm, ⟨10, _⟩ => ⟨S8192x2048x1, .f32⟩
  | .hbm, ⟨11, _⟩ => ⟨S8192x2048x2, .f32⟩
  | .hbm, ⟨12, _⟩ => ⟨S8192x1024x2x2, .f32⟩
  | .hbm, ⟨13, _⟩ => ⟨S8192x1024x1x2, .f32⟩
  | .hbm, ⟨14, _⟩ => ⟨S8192x1024x2, .f32⟩
  | .hbm, ⟨15, _⟩ => ⟨S8192x1024x1x2, .f32⟩
  | .hbm, ⟨16, _⟩ => ⟨S8192x1024x2, .f32⟩
  | .hbm, ⟨17, _⟩ => ⟨S8192x1024x2, .f32⟩
  | .hbm, ⟨18, _⟩ => ⟨S8192x1024x2, .f32⟩
  | .hbm, ⟨19, _⟩ => ⟨S8192x1024x4, .f32⟩
  | .hbm, ⟨20, _⟩ => ⟨S8192x512x2x4, .f32⟩
  | .hbm, ⟨21, _⟩ => ⟨S8192x512x1x4, .f32⟩
  | .hbm, ⟨22, _⟩ => ⟨S8192x512x4, .f32⟩
  | .hbm, ⟨23, _⟩ => ⟨S8192x512x1x4, .f32⟩
  | .hbm, ⟨24, _⟩ => ⟨S8192x512x4, .f32⟩
  | .hbm, ⟨25, _⟩ => ⟨S8192x512x4, .f32⟩
  | .hbm, ⟨26, _⟩ => ⟨S8192x512x4, .f32⟩
  | .hbm, ⟨27, _⟩ => ⟨S8192x512x8, .f32⟩
  | .hbm, ⟨28, _⟩ => ⟨S8192x256x2x8, .f32⟩
  | .hbm, ⟨29, _⟩ => ⟨S8192x256x1x8, .f32⟩
  | .hbm, ⟨30, _⟩ => ⟨S8192x256x8, .f32⟩
  | .hbm, ⟨31, _⟩ => ⟨S8192x256x1x8, .f32⟩
  | .hbm, ⟨32, _⟩ => ⟨S8192x256x8, .f32⟩
  | .hbm, ⟨33, _⟩ => ⟨S8192x256x8, .f32⟩
  | .hbm, ⟨34, _⟩ => ⟨S8192x256x8, .f32⟩
  | .hbm, ⟨35, _⟩ => ⟨S8192x256x16, .f32⟩
  | .hbm, ⟨36, _⟩ => ⟨S8192x128x2x16, .f32⟩
  | .hbm, ⟨37, _⟩ => ⟨S8192x128x1x16, .f32⟩
  | .hbm, ⟨38, _⟩ => ⟨S8192x128x16, .f32⟩
  | .hbm, ⟨39, _⟩ => ⟨S8192x128x1x16, .f32⟩
  | .hbm, ⟨40, _⟩ => ⟨S8192x128x16, .f32⟩
  | .hbm, ⟨41, _⟩ => ⟨S8192x128x16, .f32⟩
  | .hbm, ⟨42, _⟩ => ⟨S8192x128x16, .f32⟩
  | .hbm, ⟨43, _⟩ => ⟨S8192x128x32, .f32⟩
  | .hbm, ⟨44, _⟩ => ⟨S8192x64x2x32, .f32⟩
  | .hbm, ⟨45, _⟩ => ⟨S8192x64x1x32, .f32⟩
  | .hbm, ⟨46, _⟩ => ⟨S8192x64x32, .f32⟩
  | .hbm, ⟨47, _⟩ => ⟨S8192x64x1x32, .f32⟩
  | .hbm, ⟨48, _⟩ => ⟨S8192x64x32, .f32⟩
  | .hbm, ⟨49, _⟩ => ⟨S8192x64x32, .f32⟩
  | .hbm, ⟨50, _⟩ => ⟨S8192x64x32, .f32⟩
  | .hbm, ⟨51, _⟩ => ⟨S8192x64x64, .f32⟩
  | .hbm, ⟨52, _⟩ => ⟨S8192x32x2x64, .f32⟩
  | .hbm, ⟨53, _⟩ => ⟨S8192x32x1x64, .f32⟩
  | .hbm, ⟨54, _⟩ => ⟨S8192x32x64, .f32⟩
  | .hbm, ⟨55, _⟩ => ⟨S8192x32x1x64, .f32⟩
  | .hbm, ⟨56, _⟩ => ⟨S8192x32x64, .f32⟩
  | .hbm, ⟨57, _⟩ => ⟨S8192x32x64, .f32⟩
  | .hbm, ⟨58, _⟩ => ⟨S8192x32x64, .f32⟩
  | .hbm, ⟨59, _⟩ => ⟨S8192x32x128, .f32⟩
  | .hbm, ⟨60, _⟩ => ⟨S8192x16x2x128, .f32⟩
  | .hbm, ⟨61, _⟩ => ⟨S8192x16x1x128, .f32⟩
  | .hbm, ⟨62, _⟩ => ⟨S8192x16x128, .f32⟩
  | .hbm, ⟨63, _⟩ => ⟨S8192x16x1x128, .f32⟩
  | .hbm, ⟨64, _⟩ => ⟨S8192x16x128, .f32⟩
  | .hbm, ⟨65, _⟩ => ⟨S8192x16x128, .f32⟩
  | .hbm, ⟨66, _⟩ => ⟨S8192x16x128, .f32⟩
  | .hbm, ⟨67, _⟩ => ⟨S8192x16x256, .f32⟩
  | .hbm, ⟨68, _⟩ => ⟨S8192x8x2x256, .f32⟩
  | .hbm, ⟨69, _⟩ => ⟨S8192x8x1x256, .f32⟩
  | .hbm, ⟨70, _⟩ => ⟨S8192x8x256, .f32⟩
  | .hbm, ⟨71, _⟩ => ⟨S8192x8x1x256, .f32⟩
  | .hbm, ⟨72, _⟩ => ⟨S8192x8x256, .f32⟩
  | .hbm, ⟨73, _⟩ => ⟨S8192x8x256, .f32⟩
  | .hbm, ⟨74, _⟩ => ⟨S8192x8x256, .f32⟩
  | .hbm, ⟨75, _⟩ => ⟨S8192x8x512, .f32⟩
  | .hbm, ⟨76, _⟩ => ⟨S8192x4x2x512, .f32⟩
  | .hbm, ⟨77, _⟩ => ⟨S8192x4x1x512, .f32⟩
  | .hbm, ⟨78, _⟩ => ⟨S8192x4x512, .f32⟩
  | .hbm, ⟨79, _⟩ => ⟨S8192x4x1x512, .f32⟩
  | .hbm, ⟨80, _⟩ => ⟨S8192x4x512, .f32⟩
  | .hbm, ⟨81, _⟩ => ⟨S8192x4x512, .f32⟩
  | .hbm, ⟨82, _⟩ => ⟨S8192x4x512, .f32⟩
  | .hbm, ⟨83, _⟩ => ⟨S8192x4x1024, .f32⟩
  | .hbm, ⟨84, _⟩ => ⟨S8192x2x2x1024, .f32⟩
  | .hbm, ⟨85, _⟩ => ⟨S8192x2x1x1024, .f32⟩
  | .hbm, ⟨86, _⟩ => ⟨S8192x2x1024, .f32⟩
  | .hbm, ⟨87, _⟩ => ⟨S8192x2x1x1024, .f32⟩
  | .hbm, ⟨88, _⟩ => ⟨S8192x2x1024, .f32⟩
  | .hbm, ⟨89, _⟩ => ⟨S8192x2x1024, .f32⟩
  | .hbm, ⟨90, _⟩ => ⟨S8192x2x1024, .f32⟩
  | .hbm, ⟨91, _⟩ => ⟨S8192x2x2048, .f32⟩
  | .hbm, ⟨92, _⟩ => ⟨S8192x1x2x2048, .f32⟩
  | .hbm, ⟨93, _⟩ => ⟨S8192x1x1x2048, .f32⟩
  | .hbm, ⟨94, _⟩ => ⟨S8192x1x2048, .f32⟩
  | .hbm, ⟨95, _⟩ => ⟨S8192x1x1x2048, .f32⟩
  | .hbm, ⟨96, _⟩ => ⟨S8192x1x2048, .f32⟩
  | .hbm, ⟨97, _⟩ => ⟨S8192x1x2048, .f32⟩
  | .hbm, ⟨98, _⟩ => ⟨S8192x1x2048, .f32⟩
  | .hbm, ⟨99, _⟩ => ⟨S8192x1x4096, .f32⟩
  | .hbm, ⟨100, _⟩ => ⟨S4x2048x4096, .f32⟩
  | .hbm, ⟨101, _⟩ => ⟨S_, .f32⟩
  | .hbm, ⟨102, _⟩ => ⟨S_, .f32⟩
  | .hbm, ⟨103, _⟩ => ⟨S4x2048x4096, .f32⟩
  | .hbm, ⟨104, _⟩ => ⟨S4x2048x4096, .f32⟩
  | .hbm, ⟨105, _⟩ => ⟨S4x2048x4096, .f32⟩
  | .hbm, ⟨106, _⟩ => ⟨S1x1x4096, .f32⟩
  | .hbm, ⟨107, _⟩ => ⟨S4x2048x4096, .f32⟩
  | .hbm, ⟨108, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_v81 : Ref sig .tc := ⟨.hbm, 84, rfl⟩
abbrev main_v82 : Ref sig .tc := ⟨.hbm, 85, rfl⟩
abbrev main_v83 : Ref sig .tc := ⟨.hbm, 86, rfl⟩
abbrev main_v84 : Ref sig .tc := ⟨.hbm, 87, rfl⟩
abbrev main_v85 : Ref sig .tc := ⟨.hbm, 88, rfl⟩
abbrev main_v86 : Ref sig .tc := ⟨.hbm, 89, rfl⟩
abbrev main_v87 : Ref sig .tc := ⟨.hbm, 90, rfl⟩
abbrev main_v88 : Ref sig .tc := ⟨.hbm, 91, rfl⟩
abbrev main_v89 : Ref sig .tc := ⟨.hbm, 92, rfl⟩
abbrev main_v90 : Ref sig .tc := ⟨.hbm, 93, rfl⟩
abbrev main_v91 : Ref sig .tc := ⟨.hbm, 94, rfl⟩
abbrev main_v92 : Ref sig .tc := ⟨.hbm, 95, rfl⟩
abbrev main_v93 : Ref sig .tc := ⟨.hbm, 96, rfl⟩
abbrev main_v94 : Ref sig .tc := ⟨.hbm, 97, rfl⟩
abbrev main_v95 : Ref sig .tc := ⟨.hbm, 98, rfl⟩
abbrev main_v96 : Ref sig .tc := ⟨.hbm, 99, rfl⟩
abbrev main_v97 : Ref sig .tc := ⟨.hbm, 100, rfl⟩
abbrev main_cst : Ref sig .tc := ⟨.hbm, 101, rfl⟩
abbrev main_v98 : Ref sig .tc := ⟨.hbm, 102, rfl⟩
abbrev main_v99 : Ref sig .tc := ⟨.hbm, 103, rfl⟩
abbrev main_v100 : Ref sig .tc := ⟨.hbm, 104, rfl⟩
abbrev main_v101 : Ref sig .tc := ⟨.hbm, 105, rfl⟩
abbrev main_v102 : Ref sig .tc := ⟨.hbm, 106, rfl⟩
abbrev main_v103 : Ref sig .tc := ⟨.hbm, 107, rfl⟩
abbrev main_v104 : Ref sig .tc := ⟨.hbm, 108, rfl⟩

abbrev nD : Nat := 1
abbrev τ : Topo := Topo.v7x

variable {F : FTy → Type} [FloatOps F]

class Facts₀ : Prop where
  shapeCasts_S4x2048x4096_S8192x4096x1 : S4x2048x4096.ShapeCasts S8192x4096x1
  shapeCasts_S8192x4096x1_S8192x2048x2x1 : S8192x4096x1.ShapeCasts S8192x2048x2x1
  slices_S8192x2048x2x1_S8192x2048x1x1_0_0_0_0 : S8192x2048x2x1.Slices ![0, 0, 0, 0] S8192x2048x1x1
  shapeCasts_S8192x2048x1x1_S8192x2048x1 : S8192x2048x1x1.ShapeCasts S8192x2048x1
  slices_S8192x2048x2x1_S8192x2048x1x1_0_0_1_0 : S8192x2048x2x1.Slices ![0, 0, 1, 0] S8192x2048x1x1
  concatenates_S8192x2048x1_S8192x2048x1_S8192x2048x2_d2 : Shape.Concatenates [S8192x2048x1, S8192x2048x1] S8192x2048x2 2
  shapeCasts_S8192x2048x2_S8192x1024x2x2 : S8192x2048x2.ShapeCasts S8192x1024x2x2
  slices_S8192x1024x2x2_S8192x1024x1x2_0_0_0_0 : S8192x1024x2x2.Slices ![0, 0, 0, 0] S8192x1024x1x2
  shapeCasts_S8192x1024x1x2_S8192x1024x2 : S8192x1024x1x2.ShapeCasts S8192x1024x2
  slices_S8192x1024x2x2_S8192x1024x1x2_0_0_1_0 : S8192x1024x2x2.Slices ![0, 0, 1, 0] S8192x1024x1x2
  concatenates_S8192x1024x2_S8192x1024x2_S8192x1024x4_d2 : Shape.Concatenates [S8192x1024x2, S8192x1024x2] S8192x1024x4 2
  shapeCasts_S8192x1024x4_S8192x512x2x4 : S8192x1024x4.ShapeCasts S8192x512x2x4
  slices_S8192x512x2x4_S8192x512x1x4_0_0_0_0 : S8192x512x2x4.Slices ![0, 0, 0, 0] S8192x512x1x4
  shapeCasts_S8192x512x1x4_S8192x512x4 : S8192x512x1x4.ShapeCasts S8192x512x4
  slices_S8192x512x2x4_S8192x512x1x4_0_0_1_0 : S8192x512x2x4.Slices ![0, 0, 1, 0] S8192x512x1x4
  concatenates_S8192x512x4_S8192x512x4_S8192x512x8_d2 : Shape.Concatenates [S8192x512x4, S8192x512x4] S8192x512x8 2
  shapeCasts_S8192x512x8_S8192x256x2x8 : S8192x512x8.ShapeCasts S8192x256x2x8
  slices_S8192x256x2x8_S8192x256x1x8_0_0_0_0 : S8192x256x2x8.Slices ![0, 0, 0, 0] S8192x256x1x8
  shapeCasts_S8192x256x1x8_S8192x256x8 : S8192x256x1x8.ShapeCasts S8192x256x8
  slices_S8192x256x2x8_S8192x256x1x8_0_0_1_0 : S8192x256x2x8.Slices ![0, 0, 1, 0] S8192x256x1x8
  concatenates_S8192x256x8_S8192x256x8_S8192x256x16_d2 : Shape.Concatenates [S8192x256x8, S8192x256x8] S8192x256x16 2
  shapeCasts_S8192x256x16_S8192x128x2x16 : S8192x256x16.ShapeCasts S8192x128x2x16
  slices_S8192x128x2x16_S8192x128x1x16_0_0_0_0 : S8192x128x2x16.Slices ![0, 0, 0, 0] S8192x128x1x16
  shapeCasts_S8192x128x1x16_S8192x128x16 : S8192x128x1x16.ShapeCasts S8192x128x16
  slices_S8192x128x2x16_S8192x128x1x16_0_0_1_0 : S8192x128x2x16.Slices ![0, 0, 1, 0] S8192x128x1x16
  concatenates_S8192x128x16_S8192x128x16_S8192x128x32_d2 : Shape.Concatenates [S8192x128x16, S8192x128x16] S8192x128x32 2
  shapeCasts_S8192x128x32_S8192x64x2x32 : S8192x128x32.ShapeCasts S8192x64x2x32
  slices_S8192x64x2x32_S8192x64x1x32_0_0_0_0 : S8192x64x2x32.Slices ![0, 0, 0, 0] S8192x64x1x32
  shapeCasts_S8192x64x1x32_S8192x64x32 : S8192x64x1x32.ShapeCasts S8192x64x32
  slices_S8192x64x2x32_S8192x64x1x32_0_0_1_0 : S8192x64x2x32.Slices ![0, 0, 1, 0] S8192x64x1x32
  concatenates_S8192x64x32_S8192x64x32_S8192x64x64_d2 : Shape.Concatenates [S8192x64x32, S8192x64x32] S8192x64x64 2
  shapeCasts_S8192x64x64_S8192x32x2x64 : S8192x64x64.ShapeCasts S8192x32x2x64
  slices_S8192x32x2x64_S8192x32x1x64_0_0_0_0 : S8192x32x2x64.Slices ![0, 0, 0, 0] S8192x32x1x64
  shapeCasts_S8192x32x1x64_S8192x32x64 : S8192x32x1x64.ShapeCasts S8192x32x64
  slices_S8192x32x2x64_S8192x32x1x64_0_0_1_0 : S8192x32x2x64.Slices ![0, 0, 1, 0] S8192x32x1x64
  concatenates_S8192x32x64_S8192x32x64_S8192x32x128_d2 : Shape.Concatenates [S8192x32x64, S8192x32x64] S8192x32x128 2
  shapeCasts_S8192x32x128_S8192x16x2x128 : S8192x32x128.ShapeCasts S8192x16x2x128
  slices_S8192x16x2x128_S8192x16x1x128_0_0_0_0 : S8192x16x2x128.Slices ![0, 0, 0, 0] S8192x16x1x128
  shapeCasts_S8192x16x1x128_S8192x16x128 : S8192x16x1x128.ShapeCasts S8192x16x128
  slices_S8192x16x2x128_S8192x16x1x128_0_0_1_0 : S8192x16x2x128.Slices ![0, 0, 1, 0] S8192x16x1x128
  concatenates_S8192x16x128_S8192x16x128_S8192x16x256_d2 : Shape.Concatenates [S8192x16x128, S8192x16x128] S8192x16x256 2
  shapeCasts_S8192x16x256_S8192x8x2x256 : S8192x16x256.ShapeCasts S8192x8x2x256
  slices_S8192x8x2x256_S8192x8x1x256_0_0_0_0 : S8192x8x2x256.Slices ![0, 0, 0, 0] S8192x8x1x256
  shapeCasts_S8192x8x1x256_S8192x8x256 : S8192x8x1x256.ShapeCasts S8192x8x256
  slices_S8192x8x2x256_S8192x8x1x256_0_0_1_0 : S8192x8x2x256.Slices ![0, 0, 1, 0] S8192x8x1x256
  concatenates_S8192x8x256_S8192x8x256_S8192x8x512_d2 : Shape.Concatenates [S8192x8x256, S8192x8x256] S8192x8x512 2
  shapeCasts_S8192x8x512_S8192x4x2x512 : S8192x8x512.ShapeCasts S8192x4x2x512
  slices_S8192x4x2x512_S8192x4x1x512_0_0_0_0 : S8192x4x2x512.Slices ![0, 0, 0, 0] S8192x4x1x512
  shapeCasts_S8192x4x1x512_S8192x4x512 : S8192x4x1x512.ShapeCasts S8192x4x512
  slices_S8192x4x2x512_S8192x4x1x512_0_0_1_0 : S8192x4x2x512.Slices ![0, 0, 1, 0] S8192x4x1x512
  concatenates_S8192x4x512_S8192x4x512_S8192x4x1024_d2 : Shape.Concatenates [S8192x4x512, S8192x4x512] S8192x4x1024 2
  shapeCasts_S8192x4x1024_S8192x2x2x1024 : S8192x4x1024.ShapeCasts S8192x2x2x1024
  slices_S8192x2x2x1024_S8192x2x1x1024_0_0_0_0 : S8192x2x2x1024.Slices ![0, 0, 0, 0] S8192x2x1x1024
  shapeCasts_S8192x2x1x1024_S8192x2x1024 : S8192x2x1x1024.ShapeCasts S8192x2x1024
  slices_S8192x2x2x1024_S8192x2x1x1024_0_0_1_0 : S8192x2x2x1024.Slices ![0, 0, 1, 0] S8192x2x1x1024
  concatenates_S8192x2x1024_S8192x2x1024_S8192x2x2048_d2 : Shape.Concatenates [S8192x2x1024, S8192x2x1024] S8192x2x2048 2
  shapeCasts_S8192x2x2048_S8192x1x2x2048 : S8192x2x2048.ShapeCasts S8192x1x2x2048
  slices_S8192x1x2x2048_S8192x1x1x2048_0_0_0_0 : S8192x1x2x2048.Slices ![0, 0, 0, 0] S8192x1x1x2048
  shapeCasts_S8192x1x1x2048_S8192x1x2048 : S8192x1x1x2048.ShapeCasts S8192x1x2048
  slices_S8192x1x2x2048_S8192x1x1x2048_0_0_1_0 : S8192x1x2x2048.Slices ![0, 0, 1, 0] S8192x1x1x2048
  concatenates_S8192x1x2048_S8192x1x2048_S8192x1x4096_d2 : Shape.Concatenates [S8192x1x2048, S8192x1x2048] S8192x1x4096 2
  shapeCasts_S8192x1x4096_S4x2048x4096 : S8192x1x4096.ShapeCasts S4x2048x4096
  bcast_S_S4x2048x4096 : S_.BroadcastsInDim S4x2048x4096 (![] : Fin 0 → Fin S4x2048x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Finite.lean ====
/-
  Finiteness of the inputs, read back from the printed precondition.

  The precondition computes, for each of the three argument arrays, the conjunction over all of its elements of the
  comparison `|x| < +∞`, and then the conjunction of the three results.  Over the extended reals the absolute value is
  `max x (-x)` and the constant compared against is the top element `⊤`.  An extended real is `⊥`, a real, or `⊤`; at `⊥`
  and at `⊤` the absolute value is `⊤`, which is not strictly below `⊤`.  So the comparison holds exactly at the reals, and
  the precondition being true says that every element of every argument is (the embedding of) a real number.
-/
import proofs.«141641_j90692529423063_2_alg».proof.Pre_finite_inputs
import Idealize.ShloMosaic.Lib.ReduceAll
import Idealize.ShloMosaic.Lib.ValueIdx

noncomputable section

namespace Cert.FiniteInputs

open Idealize.ShloMosaic Idealize.ShloMosaic.ValueIdx

/-- The scalar shape has exactly one index. -/
instance : Subsingleton Cert.Pre_finite_inputs.S_.Idx := ⟨fun a b => funext fun d => d.elim0⟩

/-- The binary32 pattern `0x7F800000` (sign 0, exponent all ones, fraction 0) denotes `+∞`. -/
theorem inf_eq_top : Ideal.ofBits .f32 0x7F800000#32 = (⊤ : EReal) := by
  simp [Ideal.ofBits, Ideal.ieee]

/-- An extended real whose absolute value `max x (-x)` is strictly below `⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- A boolean read as a one-bit word is the word 1 exactly when it is true. -/
theorem ofBool_eq_one (c : Bool) : BitVec.ofBool c = 1#1 ↔ c = true := by cases c <;> decide

/-- One element: if the comparison `|x| < +∞` comes out true, `x` is a real number. -/
theorem real_of_cmp (x : Ideal .f32)
    (h : FloatOps.cmpf (F := Ideal) .olt (FloatOps.hostAbsf x) (FloatOps.ofBits (F := Ideal) .f32 0x7F800000#32) = 1#1) :
    ∃ r : ℝ, x = (r : EReal) := by
  apply real_of_abs_lt_top
  have h' : BitVec.ofBool (decide (max x (-x) < Ideal.ofBits .f32 0x7F800000#32)) = 1#1 := h
  rw [inf_eq_top, ofBool_eq_one, decide_eq_true_eq] at h'
  exact h'

/-- The precondition `finite_inputs`, decoded: every element of each of the three arguments is a real number. -/
theorem real_of_pre [Cert.Pre_finite_inputs.Facts]
    (X : FVec Ideal Cert.Pre_finite_inputs.S4x2048x4096 .f32) (W : FVec Ideal Cert.Pre_finite_inputs.S4096x4096 .f32)
    (b : FVec Ideal Cert.Pre_finite_inputs.S4096 .f32)
    (h : Cert.Pre_finite_inputs.fn (F := Ideal) X W b = fun _ => 1#1) :
    (∀ i, ∃ r : ℝ, X i = (r : EReal)) ∧ (∀ i, ∃ r : ℝ, W i = (r : EReal)) ∧ (∀ i, ∃ r : ℝ, b i = (r : EReal)) := by
  have h0 := congrFun h ix0
  dsimp only [Cert.Pre_finite_inputs.fn] at h0
  obtain ⟨hXW, hb⟩ := IntOp.andi_eq_one.1 h0
  obtain ⟨hX, hW⟩ := IntOp.andi_eq_one.1 hXW
  refine ⟨fun i => ?_, fun i => ?_, fun i => ?_⟩
  · exact real_of_cmp (X i) (Host.reduce_andi_all _ _ _ _ _ hX i)
  · exact real_of_cmp (W i) (Host.reduce_andi_all _ _ _ _ _ hW i)
  · exact real_of_cmp (b i) (Host.reduce_andi_all _ _ _ _ _ hb i)

end Cert.FiniteInputs

end
-- ==== Proof.Stage.lean ====
/-
  One pass of the butterfly as the programs spell it, read at an index.

  Both programs hold the table of a pass as an array `[B, m, c]` (`B` independent vectors, `m` rows, `c` columns) and make the
  next one in five steps: view it as `[B, m/2, 2, c]` (row `i` becomes the pair `(i / 2, i mod 2)`), cut out the even rows
  (`[.., 0:1, ..]`) and the odd rows (`[.., 1:2, ..]`), drop the unit axis of each, add and subtract them, and lay the sum and the
  difference side by side along the columns (`[B, m/2, 2 c]`).  Read at `(β, i, q)` the result is
  `even (β, i, q) + odd (β, i, q)` for `q < c` and `even (β, i, q - c) - odd (β, i, q - c)` for `q ≥ c`, where the even and
  the odd row are rows `2 i` and `2 i + 1` of the table before.
-/
import Idealize.ShloMosaic.PureOps.Ideal
import Idealize.ShloMosaic.Lib.ValueIdx
import Idealize.ShloMosaic.Lib.ValueLayout
import Idealize.ShloMosaic.Lib.Pipeline.Value

noncomputable section

namespace Cert.Stage

open Idealize.ShloMosaic Idealize.ShloMosaic.ValueIdx

/-- Viewing `[B, 2 m, c]` as `[B, m, 2, c]`: the entry at `(β, p, e, q)` is the entry at row `2 p + e`. -/
theorem pairRows_apply {α : Type} {B m2 m c : ℕ} (hm : m2 = 2 * m)
    (C : (⟨3, ![B, m2, c]⟩ : Shape).Idx → α) (h1 : (⟨3, ![B, m2, c]⟩ : Shape).ShapeCasts ⟨4, ![B, m, 2, c]⟩)
    (β : Fin B) (p : Fin m) (e : Fin 2) (q : Fin c) (k : Fin m2) (hk : k.val = 2 * p.val + e.val) :
    shapeCast ⟨4, ![B, m, 2, c]⟩ C h1 (ix4 β p e q) = C (ix3 β k q) := by
  refine shapeCast_apply _ _ (ix4 β p e q) (ix3 β k q) ?_
  rw [Shape.rowMajor_val_three, Shape.rowMajor_val_four]
  show (β.val * m2 + k.val) * c + q.val = ((β.val * m + p.val) * 2 + e.val) * c + q.val
  rw [hk, hm]; ring

/-- The rows of one parity `e`: cut `[B, m, 2, c]` at `e` on the pair axis and drop the unit axis. -/
theorem parity_apply {α : Type} {B m c : ℕ} (e : Fin 2)
    (R : (⟨4, ![B, m, 2, c]⟩ : Shape).Idx → α)
    (h2 : (⟨4, ![B, m, 2, c]⟩ : Shape).Slices ![0, 0, e.val, 0] ⟨4, ![B, m, 1, c]⟩)
    (h3 : (⟨4, ![B, m, 1, c]⟩ : Shape).ShapeCasts ⟨3, ![B, m, c]⟩)
    (β : Fin B) (i : Fin m) (q : Fin c) :
    shapeCast ⟨3, ![B, m, c]⟩ (extractStridedSlice ⟨4, ![B, m, 1, c]⟩ ![0, 0, e.val, 0] R h2) h3 (ix3 β i q)
      = R (ix4 β i e q) := by
  refine (shapeCast_apply _ _ (ix3 β i q) (ix4 β i (0 : Fin 1) q) ?_).trans ?_
  · rw [Shape.rowMajor_val_four, Shape.rowMajor_val_three]
    show ((β.val * m + i.val) * 1 + 0) * c + q.val = (β.val * m + i.val) * c + q.val
    ring
  · exact slice4_axis2_apply e.val R h2 β i (0 : Fin 1) q e (by simp)

/-- One pass: from the table `[B, 2 m, c]` to the table `[B, m, 2 c]`, spelt as the programs spell it. -/
def pass {B m2 m c c2 : ℕ}
    (h1 : (⟨3, ![B, m2, c]⟩ : Shape).ShapeCasts ⟨4, ![B, m, 2, c]⟩)
    (h2a : (⟨4, ![B, m, 2, c]⟩ : Shape).Slices ![0, 0, 0, 0] ⟨4, ![B, m, 1, c]⟩)
    (h2b : (⟨4, ![B, m, 2, c]⟩ : Shape).Slices ![0, 0, 1, 0] ⟨4, ![B, m, 1, c]⟩)
    (h3 : (⟨4, ![B, m, 1, c]⟩ : Shape).ShapeCasts ⟨3, ![B, m, c]⟩)
    (hcat : Shape.Concatenates [(⟨3, ![B, m, c]⟩ : Shape), ⟨3, ![B, m, c]⟩] ⟨3, ![B, m, c2]⟩ 2)
    (C : FVec Ideal ⟨3, ![B, m2, c]⟩ .f32) : FVec Ideal ⟨3, ![B, m, c2]⟩ .f32 :=
  concatenate ⟨3, ![B, m, c2]⟩ 2
    [⟨⟨3, ![B, m, c]⟩, addf
        (shapeCast ⟨3, ![B, m, c]⟩ (extractStridedSlice ⟨4, ![B, m, 1, c]⟩ ![0, 0, 0, 0] (shapeCast ⟨4, ![B, m, 2, c]⟩ C h1) h2a) h3)
        (shapeCast ⟨3, ![B, m, c]⟩ (extractStridedSlice ⟨4, ![B, m, 1, c]⟩ ![0, 0, 1, 0] (shapeCast ⟨4, ![B, m, 2, c]⟩ C h1) h2b) h3)⟩,
     ⟨⟨3, ![B, m, c]⟩, subf
        (shapeCast ⟨3, ![B, m, c]⟩ (extractStridedSlice ⟨4, ![B, m, 1, c]⟩ ![0, 0, 0, 0] (shapeCast ⟨4, ![B, m, 2, c]⟩ C h1) h2a) h3)
        (shapeCast ⟨3, ![B, m, c]⟩ (extractStridedSlice ⟨4, ![B, m, 1, c]⟩ ![0, 0, 1, 0] (shapeCast ⟨4, ![B, m, 2, c]⟩ C h1) h2b) h3)⟩]
    hcat

/-- The even and the odd rows of the table before, at row `i` and column `q`. -/
theorem evenRow_apply {B m2 m c : ℕ} (hm : m2 = 2 * m) (C : FVec Ideal ⟨3, ![B, m2, c]⟩ .f32) (h1) (h2a) (h3)
    (β : Fin B) (i : Fin m) (q : Fin c) (k : Fin m2) (hk : k.val = 2 * i.val) :
    shapeCast ⟨3, ![B, m, c]⟩ (extractStridedSlice ⟨4, ![B, m, 1, c]⟩ ![0, 0, 0, 0] (shapeCast ⟨4, ![B, m, 2, c]⟩ C h1) h2a) h3 (ix3 β i q)
      = C (ix3 β k q) :=
  (parity_apply (0 : Fin 2) _ h2a h3 β i q).trans (pairRows_apply hm C h1 β i 0 q k (by simpa using hk))

theorem oddRow_apply {B m2 m c : ℕ} (hm : m2 = 2 * m) (C : FVec Ideal ⟨3, ![B, m2, c]⟩ .f32) (h1) (h2b) (h3)
    (β : Fin B) (i : Fin m) (q : Fin c) (k : Fin m2) (hk : k.val = 2 * i.val + 1) :
    shapeCast ⟨3, ![B, m, c]⟩ (extractStridedSlice ⟨4, ![B, m, 1, c]⟩ ![0, 0, 1, 0] (shapeCast ⟨4, ![B, m, 2, c]⟩ C h1) h2b) h3 (ix3 β i q)
      = C (ix3 β k q) :=
  (parity_apply (1 : Fin 2) _ h2b h3 β i q).trans (pairRows_apply hm C h1 β i 1 q k (by simpa using hk))

/-- A pass read in its first `c` columns: the sum of rows `2 i` and `2 i + 1`. -/
theorem pass_apply_lt {B m2 m c c2 : ℕ} (hm : m2 = 2 * m) (h1) (h2a) (h2b) (h3) (hcat)
    (C : FVec Ideal ⟨3, ![B, m2, c]⟩ .f32) (β : Fin B) (i : Fin m) (q : Fin c2) (q' : Fin c) (hq : q'.val = q.val)
    (k0 k1 : Fin m2) (hk0 : k0.val = 2 * i.val) (hk1 : k1.val = 2 * i.val + 1) :
    pass (c2 := c2) h1 h2a h2b h3 hcat C (ix3 β i q) = C (ix3 β k0 q') + C (ix3 β k1 q') := by
  unfold pass
  refine (concatenate_pair_apply_left (t := ⟨3, ![B, m, c2]⟩) (s₁ := ⟨3, ![B, m, c]⟩) (s₂ := ⟨3, ![B, m, c]⟩)
    (2 : Fin 3) _ _ hcat (ix3 β i q) rfl (ix3 β i q') ?_).trans ?_
  · intro b; match b with | ⟨0, _⟩ => rfl | ⟨1, _⟩ => rfl | ⟨2, _⟩ => exact hq
  · rw [addf_apply, evenRow_apply hm C h1 h2a h3 β i q' k0 hk0, oddRow_apply hm C h1 h2b h3 β i q' k1 hk1]

/-- A pass read in its last `c` columns: the difference of rows `2 i` and `2 i + 1`. -/
theorem pass_apply_ge {B m2 m c c2 : ℕ} (hm : m2 = 2 * m) (h1) (h2a) (h2b) (h3) (hcat)
    (C : FVec Ideal ⟨3, ![B, m2, c]⟩ .f32) (β : Fin B) (i : Fin m) (q : Fin c2) (q' : Fin c) (hq : q'.val + c = q.val)
    (k0 k1 : Fin m2) (hk0 : k0.val = 2 * i.val) (hk1 : k1.val = 2 * i.val + 1) :
    pass (c2 := c2) h1 h2a h2b h3 hcat C (ix3 β i q) = C (ix3 β k0 q') - C (ix3 β k1 q') := by
  unfold pass
  refine (concatenate_pair_apply_right (t := ⟨3, ![B, m, c2]⟩) (s₁ := ⟨3, ![B, m, c]⟩) (s₂ := ⟨3, ![B, m, c]⟩)
    (2 : Fin 3) _ _ hcat (ix3 β i q) rfl rfl (ix3 β i q') ?_ ?_).trans ?_
  · intro b hb; match b with | ⟨0, _⟩ => rfl | ⟨1, _⟩ => rfl | ⟨2, _⟩ => exact absurd rfl hb
  · exact hq
  · rw [subf_apply, evenRow_apply hm C h1 h2a h3 β i q' k0 hk0, oddRow_apply hm C h1 h2b h3 β i q' k1 hk1]

end Cert.Stage

end
-- ==== Proof.Hadamard.lean ====
/-
  The butterfly of the normalized Walsh–Hadamard transform, as pure mathematics.

  A table with `m` rows and `c` columns is turned into one with `m / 2` rows and `2 c` columns: the new row `p` holds, in its
  first `c` columns, the sum of the old rows `2 p` and `2 p + 1`, and in its last `c` columns their difference.  Starting from a
  vector of length `2 ^ k` read as `2 ^ k` rows of one column, `k` passes leave one row of `2 ^ k` columns: the transform of
  the vector.  `bf x k p q` is the entry at row `p`, column `q` after `k` passes.

  The entry is a signed sum of the vector: `bf x k p q = ∑ r < 2 ^ k, x (p 2^k + r) · sgn k r q`, where the sign matrix `sgn k` is
  built by the same doubling (`sgn (k+1) r q = sgn k (r mod 2^k) (q mod 2^k)`, negated exactly when both `r` and `q` are in
  the upper half) and is therefore SYMMETRIC.  Symmetry is what lets the transform move from one factor of an inner product
  to the other: `∑ q, (bf x k 0 q) · w q = ∑ i, x i · (bf w k 0 i)`.
-/
import Idealize.ShloMosaic.PureOps.Ideal

noncomputable section

namespace Cert.Hadamard

/-- Entry `(p, q)` of the table after `k` butterfly passes over the vector `x`. -/
def bf {α : Type} [Add α] [Sub α] (x : ℕ → α) : ℕ → ℕ → ℕ → α
  | 0, p, _ => x p
  | k + 1, p, q =>
      if q < 2 ^ k then bf x k (2 * p) q + bf x k (2 * p + 1) q
      else bf x k (2 * p) (q - 2 ^ k) - bf x k (2 * p + 1) (q - 2 ^ k)

theorem bf_zero {α : Type} [Add α] [Sub α] (x : ℕ → α) (p q : ℕ) : bf x 0 p q = x p := rfl

theorem bf_succ_lt {α : Type} [Add α] [Sub α] (x : ℕ → α) (k p q : ℕ) (h : q < 2 ^ k) :
    bf x (k + 1) p q = bf x k (2 * p) q + bf x k (2 * p + 1) q := by
  simp [bf, h]

theorem bf_succ_ge {α : Type} [Add α] [Sub α] (x : ℕ → α) (k p q : ℕ) (h : ¬ q < 2 ^ k) :
    bf x (k + 1) p q = bf x k (2 * p) (q - 2 ^ k) - bf x k (2 * p + 1) (q - 2 ^ k) := by
  simp [bf, h]

/-- The passes commute with the embedding of the reals into the extended reals. -/
theorem bf_coe (x : ℕ → ℝ) (k p q : ℕ) :
    bf (fun i => ((x i : ℝ) : EReal)) k p q = ((bf x k p q : ℝ) : EReal) := by
  induction k generalizing p q with
  | zero => rfl
  | succ k ih =>
    by_cases h : q < 2 ^ k
    · rw [bf_succ_lt _ k p q h, bf_succ_lt _ k p q h, ih, ih, EReal.coe_add]
    · rw [bf_succ_ge _ k p q h, bf_succ_ge _ k p q h, ih, ih, EReal.coe_sub]

/-- The sign matrix of the transform: `sgn 0` is the `1 × 1` matrix `(1)`, and `sgn (k + 1)` is made of four copies of
  `sgn k`, the lower right one negated. -/
def sgn : ℕ → ℕ → ℕ → ℝ
  | 0, _, _ => 1
  | k + 1, r, q => sgn k (r % 2 ^ k) (q % 2 ^ k) * (if 2 ^ k ≤ r ∧ 2 ^ k ≤ q then -1 else 1)

/-- The sign matrix is symmetric: its doubling rule treats rows and columns alike. -/
theorem sgn_symm (k r q : ℕ) : sgn k r q = sgn k q r := by
  induction k generalizing r q with
  | zero => rfl
  | succ k ih =>
    simp only [sgn]
    rw [ih]
    congr 1
    by_cases h1 : 2 ^ k ≤ r <;> by_cases h2 : 2 ^ k ≤ q <;> simp [h1, h2]

/-- The entry after `k` passes is the signed sum of the `2 ^ k` entries of the vector that row `p` has absorbed. -/
theorem bf_closed (x : ℕ → ℝ) (k : ℕ) : ∀ p q, q < 2 ^ k →
    bf x k p q = ∑ r ∈ Finset.range (2 ^ k), x (p * 2 ^ k + r) * sgn k r q := by
  induction k with
  | zero =>
    intro p q _
    simp [bf, sgn]
  | succ k ih =>
    intro p q hq
    have h2 : 2 ^ (k + 1) = 2 ^ k + 2 ^ k := by ring
    rw [h2] at hq
    rw [h2, Finset.sum_range_add]
    by_cases h : q < 2 ^ k
    · -- left half of the columns: the sum of the two rows, all signs kept
      rw [bf_succ_lt x k p q h, ih _ _ h, ih _ _ h]
      congr 1
      · apply Finset.sum_congr rfl
        intro r hr
        have hr' := Finset.mem_range.mp hr
        have e : 2 * p * 2 ^ k + r = p * (2 ^ k + 2 ^ k) + r := by ring
        rw [e]
        simp only [sgn]
        rw [Nat.mod_eq_of_lt hr', Nat.mod_eq_of_lt h]
        simp [Nat.not_le.mpr h]
      · apply Finset.sum_congr rfl
        intro r hr
        have hr' := Finset.mem_range.mp hr
        have e : (2 * p + 1) * 2 ^ k + r = p * (2 ^ k + 2 ^ k) + (2 ^ k + r) := by ring
        rw [e]
        simp only [sgn]
        rw [Nat.add_mod_left, Nat.mod_eq_of_lt hr', Nat.mod_eq_of_lt h]
        simp [Nat.not_le.mpr h]
    · -- right half of the columns: the difference of the two rows, the lower right block negated
      have hge : 2 ^ k ≤ q := Nat.le_of_not_lt h
      have hlt : q - 2 ^ k < 2 ^ k := by omega
      have hmod : q % 2 ^ k = q - 2 ^ k := by
        rw [Nat.mod_eq_sub_mod hge, Nat.mod_eq_of_lt hlt]
      rw [bf_succ_ge x k p q h, ih _ _ hlt, ih _ _ hlt, sub_eq_add_neg, ← Finset.sum_neg_distrib]
      congr 1
      · apply Finset.sum_congr rfl
        intro r hr
        have hr' := Finset.mem_range.mp hr
        have e : 2 * p * 2 ^ k + r = p * (2 ^ k + 2 ^ k) + r := by ring
        rw [e]
        simp only [sgn]
        rw [Nat.mod_eq_of_lt hr', hmod]
        simp [Nat.not_le.mpr hr']
      · apply Finset.sum_congr rfl
        intro r hr
        have hr' := Finset.mem_range.mp hr
        have e : (2 * p + 1) * 2 ^ k + r = p * (2 ^ k + 2 ^ k) + (2 ^ k + r) := by ring
        rw [e]
        simp only [sgn]
        rw [Nat.add_mod_left, Nat.mod_eq_of_lt hr', hmod]
        simp [hge]

/-- The transform is self-adjoint for the inner product of vectors of length `2 ^ k`. -/
theorem bf_adjoint (x w : ℕ → ℝ) (k : ℕ) :
    ∑ q ∈ Finset.range (2 ^ k), bf x k 0 q * w q = ∑ i ∈ Finset.range (2 ^ k), x i * bf w k 0 i := by
  have L : ∀ q ∈ Finset.range (2 ^ k),
      bf x k 0 q * w q = ∑ r ∈ Finset.range (2 ^ k), x r * sgn k r q * w q := by
    intro q hq
    rw [bf_closed x k 0 q (Finset.mem_range.mp hq), Finset.sum_mul]
    simp
  have R : ∀ i ∈ Finset.range (2 ^ k),
      x i * bf w k 0 i = ∑ q ∈ Finset.range (2 ^ k), x i * sgn k i q * w q := by
    intro i hi
    rw [bf_closed w k 0 i (Finset.mem_range.mp hi), Finset.mul_sum]
    apply Finset.sum_congr rfl
    intro q _
    rw [sgn_symm k q i]
    simp only [Nat.zero_mul, Nat.zero_add]
    ring
  rw [Finset.sum_congr rfl L, Finset.sum_congr rfl R, Finset.sum_comm]

/-- The transform only reads the first `2 ^ k` entries of the vector (rows `p 2^k … p 2^k + 2^k - 1` for row `p`). -/
theorem bf_congr {α : Type} [Add α] [Sub α] (x y : ℕ → α) (k p q : ℕ)
    (h : ∀ r, r < 2 ^ k → x (p * 2 ^ k + r) = y (p * 2 ^ k + r)) : bf x k p q = bf y k p q := by
  induction k generalizing p q with
  | zero => simpa [bf] using h 0 (by simp)
  | succ k ih =>
    have h2 : 2 ^ (k + 1) = 2 ^ k + 2 ^ k := by ring
    have e0 : ∀ q', bf x k (2 * p) q' = bf y k (2 * p) q' := by
      intro q'
      apply ih
      intro r hr
      have e : 2 * p * 2 ^ k + r = p * 2 ^ (k + 1) + r := by ring
      rw [e]
      exact h r (by omega)
    have e1 : ∀ q', bf x k (2 * p + 1) q' = bf y k (2 * p + 1) q' := by
      intro q'
      apply ih
      intro r hr
      have e : (2 * p + 1) * 2 ^ k + r = p * 2 ^ (k + 1) + (2 ^ k + r) := by ring
      rw [e]
      exact h (2 ^ k + r) (by omega)
    by_cases hq : q < 2 ^ k
    · rw [bf_succ_lt x k p q hq, bf_succ_lt y k p q hq, e0, e1]
    · rw [bf_succ_ge x k p q hq, bf_succ_ge y k p q hq, e0, e1]

end Cert.Hadamard

end
-- ==== Proof.Transform.lean ====
/-
  Twelve passes: the transform of every row.

  Starting from the table `[B, 4096, 1]` (each of the `B` vectors as 4096 rows of one column) twelve passes leave
  `[B, 1, 4096]`: one row of 4096 columns per vector.  If the entries of a table are those of the abstract butterfly
  after `k` passes over the vector `x`, then after one more pass they are those after `k + 1` passes (`pass_inv`: the two
  halves of the new row are the sum and the difference of rows `2 i` and `2 i + 1`, which is the recursion of
  `Hadamard.bf`).  Applied twelve times: entry `(β, 0, q)` of the last table is `bf x 12 0 q`, the `q`-th coefficient
  of the transform of the vector `x` that row `β` of the first table holds.
-/
import proofs.«141641_j90692529423063_2_alg».proof.Proof.Stage
import proofs.«141641_j90692529423063_2_alg».proof.Proof.Hadamard

noncomputable section

namespace Cert.Stage

open Idealize.ShloMosaic Idealize.ShloMosaic.ValueIdx Cert.Hadamard

/-- A pass keeps the invariant "the table after `k` passes over `x`", with `k + 1` for `k`. -/
theorem pass_inv {B m2 m c c2 : ℕ} (k : ℕ) (hm : m2 = 2 * m) (hc2 : c2 = 2 * c) (hck : c = 2 ^ k) (h1) (h2a) (h2b) (h3) (hcat)
    (x : ℕ → EReal) (β : Fin B) (C : FVec Ideal ⟨3, ![B, m2, c]⟩ .f32)
    (hC : ∀ (i : Fin m2) (q : Fin c), C (ix3 β i q) = bf x k i.val q.val) :
    ∀ (i : Fin m) (q : Fin c2), pass (c2 := c2) h1 h2a h2b h3 hcat C (ix3 β i q) = bf x (k + 1) i.val q.val := by
  intro i q
  have hi := i.isLt
  have hq := q.isLt
  by_cases h : q.val < c
  · rw [pass_apply_lt hm h1 h2a h2b h3 hcat C β i q ⟨q.val, h⟩ rfl ⟨2 * i.val, by omega⟩ ⟨2 * i.val + 1, by omega⟩ rfl rfl,
      hC, hC, bf_succ_lt x k i.val q.val (hck ▸ h)]
  · rw [pass_apply_ge hm h1 h2a h2b h3 hcat C β i q ⟨q.val - c, by omega⟩ (by show q.val - c + c = q.val; omega)
        ⟨2 * i.val, by omega⟩ ⟨2 * i.val + 1, by omega⟩ rfl rfl,
      hC, hC, bf_succ_ge x k i.val q.val (hck ▸ h)]
    subst hck; rfl

/-- A pass at literal extents; its five shape facts are decided. -/
local macro "pass!" B:num m2:num m:num c:num c2:num : term =>
  `(pass (B := $B) (m2 := $m2) (m := $m) (c := $c) (c2 := $c2) (by decide) (by decide) (by decide) (by decide) (by decide))

/-- The invariant's step at pass `k`, to a table of `m` rows and `c2` columns. -/
local macro "step!" k:num m:num c2:num x:term:max b:term:max h:term:max : term =>
  `(pass_inv (m := $m) (c2 := $c2) $k rfl rfl (by norm_num) (by decide) (by decide) (by decide) (by decide) (by decide) $x $b _ $h)

/-! ## The passes, one after the other -/

/-- The first 1 pass over 8192 vectors: 2048 rows of 2 columns each. -/
def H8192_1 (C : FVec Ideal ⟨3, ![8192, 4096, 1]⟩ .f32) : FVec Ideal ⟨3, ![8192, 2048, 2]⟩ .f32 :=
  (pass! 8192 4096 2048 1 2) C

/-- The first 2 passes over 8192 vectors: 1024 rows of 4 columns each. -/
def H8192_2 (C : FVec Ideal ⟨3, ![8192, 4096, 1]⟩ .f32) : FVec Ideal ⟨3, ![8192, 1024, 4]⟩ .f32 :=
  (pass! 8192 2048 1024 2 4) (H8192_1 C)

/-- The first 3 passes over 8192 vectors: 512 rows of 8 columns each. -/
def H8192_3 (C : FVec Ideal ⟨3, ![8192, 4096, 1]⟩ .f32) : FVec Ideal ⟨3, ![8192, 512, 8]⟩ .f32 :=
  (pass! 8192 1024 512 4 8) (H8192_2 C)

/-- The first 4 passes over 8192 vectors: 256 rows of 16 columns each. -/
def H8192_4 (C : FVec Ideal ⟨3, ![8192, 4096, 1]⟩ .f32) : FVec Ideal ⟨3, ![8192, 256, 16]⟩ .f32 :=
  (pass! 8192 512 256 8 16) (H8192_3 C)

/-- The first 5 passes over 8192 vectors: 128 rows of 32 columns each. -/
def H8192_5 (C : FVec Ideal ⟨3, ![8192, 4096, 1]⟩ .f32) : FVec Ideal ⟨3, ![8192, 128, 32]⟩ .f32 :=
  (pass! 8192 256 128 16 32) (H8192_4 C)

/-- The first 6 passes over 8192 vectors: 64 rows of 64 columns each. -/
def H8192_6 (C : FVec Ideal ⟨3, ![8192, 4096, 1]⟩ .f32) : FVec Ideal ⟨3, ![8192, 64, 64]⟩ .f32 :=
  (pass! 8192 128 64 32 64) (H8192_5 C)

/-- The first 7 passes over 8192 vectors: 32 rows of 128 columns each. -/
def H8192_7 (C : FVec Ideal ⟨3, ![8192, 4096, 1]⟩ .f32) : FVec Ideal ⟨3, ![8192, 32, 128]⟩ .f32 :=
  (pass! 8192 64 32 64 128) (H8192_6 C)

/-- The first 8 passes over 8192 vectors: 16 rows of 256 columns each. -/
def H8192_8 (C : FVec Ideal ⟨3, ![8192, 4096, 1]⟩ .f32) : FVec Ideal ⟨3, ![8192, 16, 256]⟩ .f32 :=
  (pass! 8192 32 16 128 256) (H8192_7 C)

/-- The first 9 passes over 8192 vectors: 8 rows of 512 columns each. -/
def H8192_9 (C : FVec Ideal ⟨3, ![8192, 4096, 1]⟩ .f32) : FVec Ideal ⟨3, ![8192, 8, 512]⟩ .f32 :=
  (pass! 8192 16 8 256 512) (H8192_8 C)

/-- The first 10 passes over 8192 vectors: 4 rows of 1024 columns each. -/
def H8192_10 (C : FVec Ideal ⟨3, ![8192, 4096, 1]⟩ .f32) : FVec Ideal ⟨3, ![8192, 4, 1024]⟩ .f32 :=
  (pass! 8192 8 4 512 1024) (H8192_9 C)

/-- The first 11 passes over 8192 vectors: 2 rows of 2048 columns each. -/
def H8192_11 (C : FVec Ideal ⟨3, ![8192, 4096, 1]⟩ .f32) : FVec Ideal ⟨3, ![8192, 2, 2048]⟩ .f32 :=
  (pass! 8192 4 2 1024 2048) (H8192_10 C)

/-- The first 12 passes over 8192 vectors: 1 row of 4096 columns each. -/
def H8192_12 (C : FVec Ideal ⟨3, ![8192, 4096, 1]⟩ .f32) : FVec Ideal ⟨3, ![8192, 1, 4096]⟩ .f32 :=
  (pass! 8192 2 1 2048 4096) (H8192_11 C)

/-- The first 1 pass over 4096 vectors: 2048 rows of 2 columns each. -/
def H4096_1 (C : FVec Ideal ⟨3, ![4096, 4096, 1]⟩ .f32) : FVec Ideal ⟨3, ![4096, 2048, 2]⟩ .f32 :=
  (pass! 4096 4096 2048 1 2) C

/-- The first 2 passes over 4096 vectors: 1024 rows of 4 columns each. -/
def H4096_2 (C : FVec Ideal ⟨3, ![4096, 4096, 1]⟩ .f32) : FVec Ideal ⟨3, ![4096, 1024, 4]⟩ .f32 :=
  (pass! 4096 2048 1024 2 4) (H4096_1 C)

/-- The first 3 passes over 4096 vectors: 512 rows of 8 columns each. -/
def H4096_3 (C : FVec Ideal ⟨3, ![4096, 4096, 1]⟩ .f32) : FVec Ideal ⟨3, ![4096, 512, 8]⟩ .f32 :=
  (pass! 4096 1024 512 4 8) (H4096_2 C)

/-- The first 4 passes over 4096 vectors: 256 rows of 16 columns each. -/
def H4096_4 (C : FVec Ideal ⟨3, ![4096, 4096, 1]⟩ .f32) : FVec Ideal ⟨3, ![4096, 256, 16]⟩ .f32 :=
  (pass! 4096 512 256 8 16) (H4096_3 C)

/-- The first 5 passes over 4096 vectors: 128 rows of 32 columns each. -/
def H4096_5 (C : FVec Ideal ⟨3, ![4096, 4096, 1]⟩ .f32) : FVec Ideal ⟨3, ![4096, 128, 32]⟩ .f32 :=
  (pass! 4096 256 128 16 32) (H4096_4 C)

/-- The first 6 passes over 4096 vectors: 64 rows of 64 columns each. -/
def H4096_6 (C : FVec Ideal ⟨3, ![4096, 4096, 1]⟩ .f32) : FVec Ideal ⟨3, ![4096, 64, 64]⟩ .f32 :=
  (pass! 4096 128 64 32 64) (H4096_5 C)

/-- The first 7 passes over 4096 vectors: 32 rows of 128 columns each. -/
def H4096_7 (C : FVec Ideal ⟨3, ![4096, 4096, 1]⟩ .f32) : FVec Ideal ⟨3, ![4096, 32, 128]⟩ .f32 :=
  (pass! 4096 64 32 64 128) (H4096_6 C)

/-- The first 8 passes over 4096 vectors: 16 rows of 256 columns each. -/
def H4096_8 (C : FVec Ideal ⟨3, ![4096, 4096, 1]⟩ .f32) : FVec Ideal ⟨3, ![4096, 16, 256]⟩ .f32 :=
  (pass! 4096 32 16 128 256) (H4096_7 C)

/-- The first 9 passes over 4096 vectors: 8 rows of 512 columns each. -/
def H4096_9 (C : FVec Ideal ⟨3, ![4096, 4096, 1]⟩ .f32) : FVec Ideal ⟨3, ![4096, 8, 512]⟩ .f32 :=
  (pass! 4096 16 8 256 512) (H4096_8 C)

/-- The first 10 passes over 4096 vectors: 4 rows of 1024 columns each. -/
def H4096_10 (C : FVec Ideal ⟨3, ![4096, 4096, 1]⟩ .f32) : FVec Ideal ⟨3, ![4096, 4, 1024]⟩ .f32 :=
  (pass! 4096 8 4 512 1024) (H4096_9 C)

/-- The first 11 passes over 4096 vectors: 2 rows of 2048 columns each. -/
def H4096_11 (C : FVec Ideal ⟨3, ![4096, 4096, 1]⟩ .f32) : FVec Ideal ⟨3, ![4096, 2, 2048]⟩ .f32 :=
  (pass! 4096 4 2 1024 2048) (H4096_10 C)

/-- The first 12 passes over 4096 vectors: 1 row of 4096 columns each. -/
def H4096_12 (C : FVec Ideal ⟨3, ![4096, 4096, 1]⟩ .f32) : FVec Ideal ⟨3, ![4096, 1, 4096]⟩ .f32 :=
  (pass! 4096 2 1 2048 4096) (H4096_11 C)

/-- The twelve passes over 8192 vectors (the rows of the flattened data). -/
def had8192 (C : FVec Ideal ⟨3, ![8192, 4096, 1]⟩ .f32) : FVec Ideal ⟨3, ![8192, 1, 4096]⟩ .f32 := H8192_12 C

/-- The twelve passes over 4096 vectors (the rows of the weight matrix). -/
def had4096 (C : FVec Ideal ⟨3, ![4096, 4096, 1]⟩ .f32) : FVec Ideal ⟨3, ![4096, 1, 4096]⟩ .f32 := H4096_12 C

/-! ## The invariant, pass by pass: after `k` passes the table of row `β` is `bf x k` -/

theorem H8192_1_apply (x : ℕ → EReal) (β : Fin 8192) (C : FVec Ideal ⟨3, ![8192, 4096, 1]⟩ .f32)
    (hC : ∀ (i : Fin 4096) (q : Fin 1), C (ix3 β i q) = bf x 0 i.val q.val) :
    ∀ (i : Fin 2048) (q : Fin 2), H8192_1 C (ix3 β i q) = bf x 1 i.val q.val := by
  unfold H8192_1
  have h := step! 0 2048 2 x β hC
  exact h

theorem H8192_2_apply (x : ℕ → EReal) (β : Fin 8192) (C : FVec Ideal ⟨3, ![8192, 4096, 1]⟩ .f32)
    (hC : ∀ (i : Fin 4096) (q : Fin 1), C (ix3 β i q) = bf x 0 i.val q.val) :
    ∀ (i : Fin 1024) (q : Fin 4), H8192_2 C (ix3 β i q) = bf x 2 i.val q.val := by
  unfold H8192_2
  have h := step! 1 1024 4 x β (H8192_1_apply x β C hC)
  exact h

theorem H8192_3_apply (x : ℕ → EReal) (β : Fin 8192) (C : FVec Ideal ⟨3, ![8192, 4096, 1]⟩ .f32)
    (hC : ∀ (i : Fin 4096) (q : Fin 1), C (ix3 β i q) = bf x 0 i.val q.val) :
    ∀ (i : Fin 512) (q : Fin 8), H8192_3 C (ix3 β i q) = bf x 3 i.val q.val := by
  unfold H8192_3
  have h := step! 2 512 8 x β (H8192_2_apply x β C hC)
  exact h

theorem H8192_4_apply (x : ℕ → EReal) (β : Fin 8192) (C : FVec Ideal ⟨3, ![8192, 4096, 1]⟩ .f32)
    (hC : ∀ (i : Fin 4096) (q : Fin 1), C (ix3 β i q) = bf x 0 i.val q.val) :
    ∀ (i : Fin 256) (q : Fin 16), H8192_4 C (ix3 β i q) = bf x 4 i.val q.val := by
  unfold H8192_4
  have h := step! 3 256 16 x β (H8192_3_apply x β C hC)
  exact h

theorem H8192_5_apply (x : ℕ → EReal) (β : Fin 8192) (C : FVec Ideal ⟨3, ![8192, 4096, 1]⟩ .f32)
    (hC : ∀ (i : Fin 4096) (q : Fin 1), C (ix3 β i q) = bf x 0 i.val q.val) :
    ∀ (i : Fin 128) (q : Fin 32), H8192_5 C (ix3 β i q) = bf x 5 i.val q.val := by
  unfold H8192_5
  have h := step! 4 128 32 x β (H8192_4_apply x β C hC)
  exact h

theorem H8192_6_apply (x : ℕ → EReal) (β : Fin 8192) (C : FVec Ideal ⟨3, ![8192, 4096, 1]⟩ .f32)
    (hC : ∀ (i : Fin 4096) (q : Fin 1), C (ix3 β i q) = bf x 0 i.val q.val) :
    ∀ (i : Fin 64) (q : Fin 64), H8192_6 C (ix3 β i q) = bf x 6 i.val q.val := by
  unfold H8192_6
  have h := step! 5 64 64 x β (H8192_5_apply x β C hC)
  exact h

theorem H8192_7_apply (x : ℕ → EReal) (β : Fin 8192) (C : FVec Ideal ⟨3, ![8192, 4096, 1]⟩ .f32)
    (hC : ∀ (i : Fin 4096) (q : Fin 1), C (ix3 β i q) = bf x 0 i.val q.val) :
    ∀ (i : Fin 32) (q : Fin 128), H8192_7 C (ix3 β i q) = bf x 7 i.val q.val := by
  unfold H8192_7
  have h := step! 6 32 128 x β (H8192_6_apply x β C hC)
  exact h

theorem H8192_8_apply (x : ℕ → EReal) (β : Fin 8192) (C : FVec Ideal ⟨3, ![8192, 4096, 1]⟩ .f32)
    (hC : ∀ (i : Fin 4096) (q : Fin 1), C (ix3 β i q) = bf x 0 i.val q.val) :
    ∀ (i : Fin 16) (q : Fin 256), H8192_8 C (ix3 β i q) = bf x 8 i.val q.val := by
  unfold H8192_8
  have h := step! 7 16 256 x β (H8192_7_apply x β C hC)
  exact h

theorem H8192_9_apply (x : ℕ → EReal) (β : Fin 8192) (C : FVec Ideal ⟨3, ![8192, 4096, 1]⟩ .f32)
    (hC : ∀ (i : Fin 4096) (q : Fin 1), C (ix3 β i q) = bf x 0 i.val q.val) :
    ∀ (i : Fin 8) (q : Fin 512), H8192_9 C (ix3 β i q) = bf x 9 i.val q.val := by
  unfold H8192_9
  have h := step! 8 8 512 x β (H8192_8_apply x β C hC)
  exact h

theorem H8192_10_apply (x : ℕ → EReal) (β : Fin 8192) (C : FVec Ideal ⟨3, ![8192, 4096, 1]⟩ .f32)
    (hC : ∀ (i : Fin 4096) (q : Fin 1), C (ix3 β i q) = bf x 0 i.val q.val) :
    ∀ (i : Fin 4) (q : Fin 1024), H8192_10 C (ix3 β i q) = bf x 10 i.val q.val := by
  unfold H8192_10
  have h := step! 9 4 1024 x β (H8192_9_apply x β C hC)
  exact h

theorem H8192_11_apply (x : ℕ → EReal) (β : Fin 8192) (C : FVec Ideal ⟨3, ![8192, 4096, 1]⟩ .f32)
    (hC : ∀ (i : Fin 4096) (q : Fin 1), C (ix3 β i q) = bf x 0 i.val q.val) :
    ∀ (i : Fin 2) (q : Fin 2048), H8192_11 C (ix3 β i q) = bf x 11 i.val q.val := by
  unfold H8192_11
  have h := step! 10 2 2048 x β (H8192_10_apply x β C hC)
  exact h

theorem H8192_12_apply (x : ℕ → EReal) (β : Fin 8192) (C : FVec Ideal ⟨3, ![8192, 4096, 1]⟩ .f32)
    (hC : ∀ (i : Fin 4096) (q : Fin 1), C (ix3 β i q) = bf x 0 i.val q.val) :
    ∀ (i : Fin 1) (q : Fin 4096), H8192_12 C (ix3 β i q) = bf x 12 i.val q.val := by
  unfold H8192_12
  have h := step! 11 1 4096 x β (H8192_11_apply x β C hC)
  exact h

theorem H4096_1_apply (x : ℕ → EReal) (β : Fin 4096) (C : FVec Ideal ⟨3, ![4096, 4096, 1]⟩ .f32)
    (hC : ∀ (i : Fin 4096) (q : Fin 1), C (ix3 β i q) = bf x 0 i.val q.val) :
    ∀ (i : Fin 2048) (q : Fin 2), H4096_1 C (ix3 β i q) = bf x 1 i.val q.val := by
  unfold H4096_1
  have h := step! 0 2048 2 x β hC
  exact h

theorem H4096_2_apply (x : ℕ → EReal) (β : Fin 4096) (C : FVec Ideal ⟨3, ![4096, 4096, 1]⟩ .f32)
    (hC : ∀ (i : Fin 4096) (q : Fin 1), C (ix3 β i q) = bf x 0 i.val q.val) :
    ∀ (i : Fin 1024) (q : Fin 4), H4096_2 C (ix3 β i q) = bf x 2 i.val q.val := by
  unfold H4096_2
  have h := step! 1 1024 4 x β (H4096_1_apply x β C hC)
  exact h

theorem H4096_3_apply (x : ℕ → EReal) (β : Fin 4096) (C : FVec Ideal ⟨3, ![4096, 4096, 1]⟩ .f32)
    (hC : ∀ (i : Fin 4096) (q : Fin 1), C (ix3 β i q) = bf x 0 i.val q.val) :
    ∀ (i : Fin 512) (q : Fin 8), H4096_3 C (ix3 β i q) = bf x 3 i.val q.val := by
  unfold H4096_3
  have h := step! 2 512 8 x β (H4096_2_apply x β C hC)
  exact h

theorem H4096_4_apply (x : ℕ → EReal) (β : Fin 4096) (C : FVec Ideal ⟨3, ![4096, 4096, 1]⟩ .f32)
    (hC : ∀ (i : Fin 4096) (q : Fin 1), C (ix3 β i q) = bf x 0 i.val q.val) :
    ∀ (i : Fin 256) (q : Fin 16), H4096_4 C (ix3 β i q) = bf x 4 i.val q.val := by
  unfold H4096_4
  have h := step! 3 256 16 x β (H4096_3_apply x β C hC)
  exact h

theorem H4096_5_apply (x : ℕ → EReal) (β : Fin 4096) (C : FVec Ideal ⟨3, ![4096, 4096, 1]⟩ .f32)
    (hC : ∀ (i : Fin 4096) (q : Fin 1), C (ix3 β i q) = bf x 0 i.val q.val) :
    ∀ (i : Fin 128) (q : Fin 32), H4096_5 C (ix3 β i q) = bf x 5 i.val q.val := by
  unfold H4096_5
  have h := step! 4 128 32 x β (H4096_4_apply x β C hC)
  exact h

theorem H4096_6_apply (x : ℕ → EReal) (β : Fin 4096) (C : FVec Ideal ⟨3, ![4096, 4096, 1]⟩ .f32)
    (hC : ∀ (i : Fin 4096) (q : Fin 1), C (ix3 β i q) = bf x 0 i.val q.val) :
    ∀ (i : Fin 64) (q : Fin 64), H4096_6 C (ix3 β i q) = bf x 6 i.val q.val := by
  unfold H4096_6
  have h := step! 5 64 64 x β (H4096_5_apply x β C hC)
  exact h

theorem H4096_7_apply (x : ℕ → EReal) (β : Fin 4096) (C : FVec Ideal ⟨3, ![4096, 4096, 1]⟩ .f32)
    (hC : ∀ (i : Fin 4096) (q : Fin 1), C (ix3 β i q) = bf x 0 i.val q.val) :
    ∀ (i : Fin 32) (q : Fin 128), H4096_7 C (ix3 β i q) = bf x 7 i.val q.val := by
  unfold H4096_7
  have h := step! 6 32 128 x β (H4096_6_apply x β C hC)
  exact h

theorem H4096_8_apply (x : ℕ → EReal) (β : Fin 4096) (C : FVec Ideal ⟨3, ![4096, 4096, 1]⟩ .f32)
    (hC : ∀ (i : Fin 4096) (q : Fin 1), C (ix3 β i q) = bf x 0 i.val q.val) :
    ∀ (i : Fin 16) (q : Fin 256), H4096_8 C (ix3 β i q) = bf x 8 i.val q.val := by
  unfold H4096_8
  have h := step! 7 16 256 x β (H4096_7_apply x β C hC)
  exact h

theorem H4096_9_apply (x : ℕ → EReal) (β : Fin 4096) (C : FVec Ideal ⟨3, ![4096, 4096, 1]⟩ .f32)
    (hC : ∀ (i : Fin 4096) (q : Fin 1), C (ix3 β i q) = bf x 0 i.val q.val) :
    ∀ (i : Fin 8) (q : Fin 512), H4096_9 C (ix3 β i q) = bf x 9 i.val q.val := by
  unfold H4096_9
  have h := step! 8 8 512 x β (H4096_8_apply x β C hC)
  exact h

theorem H4096_10_apply (x : ℕ → EReal) (β : Fin 4096) (C : FVec Ideal ⟨3, ![4096, 4096, 1]⟩ .f32)
    (hC : ∀ (i : Fin 4096) (q : Fin 1), C (ix3 β i q) = bf x 0 i.val q.val) :
    ∀ (i : Fin 4) (q : Fin 1024), H4096_10 C (ix3 β i q) = bf x 10 i.val q.val := by
  unfold H4096_10
  have h := step! 9 4 1024 x β (H4096_9_apply x β C hC)
  exact h

theorem H4096_11_apply (x : ℕ → EReal) (β : Fin 4096) (C : FVec Ideal ⟨3, ![4096, 4096, 1]⟩ .f32)
    (hC : ∀ (i : Fin 4096) (q : Fin 1), C (ix3 β i q) = bf x 0 i.val q.val) :
    ∀ (i : Fin 2) (q : Fin 2048), H4096_11 C (ix3 β i q) = bf x 11 i.val q.val := by
  unfold H4096_11
  have h := step! 10 2 2048 x β (H4096_10_apply x β C hC)
  exact h

theorem H4096_12_apply (x : ℕ → EReal) (β : Fin 4096) (C : FVec Ideal ⟨3, ![4096, 4096, 1]⟩ .f32)
    (hC : ∀ (i : Fin 4096) (q : Fin 1), C (ix3 β i q) = bf x 0 i.val q.val) :
    ∀ (i : Fin 1) (q : Fin 4096), H4096_12 C (ix3 β i q) = bf x 12 i.val q.val := by
  unfold H4096_12
  have h := step! 11 1 4096 x β (H4096_11_apply x β C hC)
  exact h

/-- Row `β` of the last table is the transform of the vector in row `β` of the first. -/
theorem had8192_apply (x : ℕ → EReal) (β : Fin 8192) (C : FVec Ideal ⟨3, ![8192, 4096, 1]⟩ .f32)
    (hC : ∀ (i : Fin 4096) (q : Fin 1), C (ix3 β i q) = bf x 0 i.val q.val) (q : Fin 4096) :
    had8192 C (ix3 β (0 : Fin 1) q) = bf x 12 0 q.val :=
  H8192_12_apply x β C hC 0 q

theorem had4096_apply (x : ℕ → EReal) (β : Fin 4096) (C : FVec Ideal ⟨3, ![4096, 4096, 1]⟩ .f32)
    (hC : ∀ (i : Fin 4096) (q : Fin 1), C (ix3 β i q) = bf x 0 i.val q.val) (q : Fin 4096) :
    had4096 C (ix3 β (0 : Fin 1) q) = bf x 12 0 q.val :=
  H4096_12_apply x β C hC 0 q

end Cert.Stage

end
-- ==== Proof.RefValue.lean ====
/-
  What the reference computes, index by index.

  The reference transforms every row of the data (`[4, 2048, 4096]` read as 8192 vectors of length 4096: twelve butterfly
  passes, then a division by `sqrt 4096`), multiplies by the transposed weights (`einsum 'bsd,od->bso'`: the sum over `d` of
  the transformed row's entry `d` times `W[o, d]`) and adds the bias.  At `(a, s, o)`:
  `(∑ d, (T x)_d / sqrt 4096 · W[o, d]) + b[o]`, where `x` is row `(a, s)` of the data and `T` the butterfly.
-/
import proofs.«141641_j90692529423063_2_alg».proof.Proof.Gen.ReferenceIdeal
import proofs.«141641_j90692529423063_2_alg».proof.Proof.Transform
import Idealize.ShloMosaic.PureOps.Ideal.Laws
import Idealize.ShloMosaic.Lib.IdealHost

set_option Elab.async false

noncomputable section

namespace Cert.ReferenceIdeal.RefValue

open Cert.ReferenceIdeal Cert.ReferenceIdeal.Gen
open Idealize.ShloMosaic Idealize.ShloMosaic.TcCoe Idealize.SL.Sem Idealize.ShloMosaic.ValueIdx Idealize.ShloMosaic.StableHlo
open Cert.Stage Cert.Hadamard

/-- The product's dimensions: the data's last axis against the weights' last axis. -/
abbrev dotR := dot_S4x2048x4096_S4096x4096_S4x2048x4096_2_1_01_0_n_n

/-! ## The product at an index: a sum over the contracted axis -/

theorem lhs_0 (i : S4x2048x4096.Idx) (q : dotR.contr.Idx) : (dotR.lhsIdx i q 0).val = (i 0).val := by
  unfold DotDims.lhsIdx
  rw [dif_neg (show ¬(0 : Fin S4x2048x4096.rank) ∈ dotR.lhsBatch by decide),
    dif_pos (show (0 : Fin S4x2048x4096.rank) ∈ dotR.lhsNonContracting by decide)]
  rfl

theorem lhs_1 (i : S4x2048x4096.Idx) (q : dotR.contr.Idx) : (dotR.lhsIdx i q 1).val = (i 1).val := by
  unfold DotDims.lhsIdx
  rw [dif_neg (show ¬(1 : Fin S4x2048x4096.rank) ∈ dotR.lhsBatch by decide),
    dif_pos (show (1 : Fin S4x2048x4096.rank) ∈ dotR.lhsNonContracting by decide)]
  rfl

theorem lhs_2 (i : S4x2048x4096.Idx) (q : dotR.contr.Idx) : (dotR.lhsIdx i q 2).val = (q ⟨0, by decide⟩).val :=
  dotR.lhsIdx_val_of_single rfl i q

theorem rhs_0 (i : S4x2048x4096.Idx) (q : dotR.contr.Idx) : (dotR.rhsIdx i q 0).val = (i 2).val := by
  unfold DotDims.rhsIdx
  rw [dif_neg (show ¬(0 : Fin S4096x4096.rank) ∈ dotR.rhsBatch by decide),
    dif_pos (show (0 : Fin S4096x4096.rank) ∈ dotR.rhsNonContracting by decide)]
  rfl

theorem rhs_1 (i : S4x2048x4096.Idx) (q : dotR.contr.Idx) : (dotR.rhsIdx i q 1).val = (q ⟨0, by decide⟩).val :=
  dotR.rhsIdx_val_of_single rfl i q

/-- `einsum 'bsd,od->bso'` at `(a, s, o)`: the sum over `d` of `l[a, s, d] · r[o, d]`. -/
theorem dot_apply (l : FVec Ideal S4x2048x4096 .f32) (r : FVec Ideal S4096x4096 .f32) (a : Fin 4) (s : Fin 2048) (o : Fin 4096) :
    Host.dotGeneral dotR none l r (ix3 a s o) = ∑ d : Fin 4096, l (ix3 a s d) * r (ix2 o d) := by
  simp only [Host.dotGeneral]
  rw [Ideal.dotGeneral_apply, ← Equiv.sum_comp (ValueIdx.contrEquiv1 dotR 4096 rfl rfl).symm]
  refine Finset.sum_congr rfl fun k _ => ?_
  have hk := ValueIdx.contrEquiv1_symm_val dotR 4096 rfl rfl k
  have el : dotR.lhsIdx (ix3 a s o) ((ValueIdx.contrEquiv1 dotR 4096 rfl rfl).symm k) = ix3 a s k := funext fun b => Fin.ext (by
    match b with
    | ⟨0, _⟩ => exact lhs_0 _ _
    | ⟨1, _⟩ => exact lhs_1 _ _
    | ⟨2, _⟩ => exact (lhs_2 _ _).trans hk)
  have er : dotR.rhsIdx (ix3 a s o) ((ValueIdx.contrEquiv1 dotR 4096 rfl rfl).symm k) = ix2 o k := funext fun b => Fin.ext (by
    match b with
    | ⟨0, _⟩ => exact rhs_0 _ _
    | ⟨1, _⟩ => exact (rhs_1 _ _).trans hk)
  rw [el, er]

/-! ## The reference's result as one function of its arguments -/

/-- The reference's operations, the twelve passes gathered in `had8192`. -/
def refOut (X : FVec Ideal S4x2048x4096 .f32) (W : FVec Ideal S4096x4096 .f32) (b : FVec Ideal S4096 .f32) :
    FVec Ideal S4x2048x4096 .f32 :=
  addf (Host.dotGeneral dotR none
      (Host.divf
        (shapeCast S4x2048x4096 (had8192 (shapeCast S8192x4096x1 X shapeCasts_S4x2048x4096_S8192x4096x1))
          shapeCasts_S8192x1x4096_S4x2048x4096)
        (broadcastInDim S4x2048x4096 ![] bcast_S_S4x2048x4096 (Host.sqrt (constant (F := Ideal) S_ .f32 0x45800000#32))))
      W)
    (broadcastInDim S4x2048x4096 ![0, 1, 2] bcast_S1x1x4096_S4x2048x4096_0_1_2 (broadcastInDim S1x1x4096 ![2] bcast_S4096_S1x1x4096_2 b))

/-- Row `(a, s)` of the data as a vector indexed by the naturals (zero past its length). -/
def rowX (X : FVec Ideal S4x2048x4096 .f32) (a : Fin 4) (s : Fin 2048) : ℕ → EReal :=
  fun i => if h : i < 4096 then X (ix3 a s ⟨i, h⟩) else 0

/-- The divisor both programs compute on the host: the square root of the float 4096. -/
abbrev rootD : EReal := Ideal.sqrt (Ideal.ofBits .f32 0x45800000#32)

theorem refOut_apply (X : FVec Ideal S4x2048x4096 .f32) (W : FVec Ideal S4096x4096 .f32) (b : FVec Ideal S4096 .f32)
    (a : Fin 4) (s : Fin 2048) (o : Fin 4096) :
    refOut X W b (ix3 a s o)
      = (∑ d : Fin 4096, Ideal.div (bf (rowX X a s) 12 0 d.val) rootD * W (ix2 o d)) + b (ix1 o) := by
  unfold refOut
  rw [addf_apply, dot_apply]
  congr 1
  · refine Finset.sum_congr rfl fun d _ => ?_
    congr 1
    rw [hostDivf_apply]
    congr 1
    · -- row (a, s) of the data is row 2048 a + s of the flattened data
      have hβ : a.val * 2048 + s.val < 8192 := by have := a.isLt; have := s.isLt; omega
      refine (shapeCast_apply _ _ (ix3 a s d) (ix3 (⟨a.val * 2048 + s.val, hβ⟩ : Fin 8192) (0 : Fin 1) d) ?_).trans ?_
      · rw [Shape.rowMajor_val_three, Shape.rowMajor_val_three]
        show ((a.val * 2048 + s.val) * 1 + 0) * 4096 + d.val = (a.val * 2048 + s.val) * 4096 + d.val
        omega
      · refine had8192_apply (rowX X a s) _ _ (fun i q => ?_) d
        rw [bf_zero]
        refine (shapeCast_apply _ _ (ix3 (⟨a.val * 2048 + s.val, hβ⟩ : Fin 8192) i q) (ix3 a s i) ?_).trans ?_
        · rw [Shape.rowMajor_val_three, Shape.rowMajor_val_three]
          show (a.val * 2048 + s.val) * 4096 + i.val = ((a.val * 2048 + s.val) * 4096 + i.val) * 1 + q.val
          have := q.isLt; omega
        · unfold rowX; rw [dif_pos i.isLt]
  · refine (broadcastInDim_apply _ _ _ (ix3 a s o) (ix3 (0 : Fin 1) (0 : Fin 1) o) (fun ax => ?_)).trans ?_
    · match ax with
      | ⟨0, _⟩ => rfl
      | ⟨1, _⟩ => rfl
      | ⟨2, _⟩ => rfl
    · refine broadcastInDim_apply _ _ _ (ix3 (0 : Fin 1) (0 : Fin 1) o) (ix1 o) (fun ax => ?_)
      match ax with
      | ⟨0, _⟩ => rfl

end Cert.ReferenceIdeal.RefValue

end
-- ==== Proof.RefEval.lean ====
/-
  The reference's run, evaluated.

  The run leaves every buffer at the fold of the program's 106 operations over the launch contents.  Evaluated pass by pass
  the fold is `refOut` of the arguments (Proof/RefValue.lean): rotate the rows of the data, multiply by the weights, add the bias.
-/
import proofs.«141641_j90692529423063_2_alg».proof.Proof.RefRun
import proofs.«141641_j90692529423063_2_alg».proof.Proof.RefValue
import Idealize.ShloMosaic.Lib.StableHlo.Run

set_option Elab.async false

noncomputable section

namespace Cert.ReferenceIdeal.RefValue

open Cert.ReferenceIdeal Cert.ReferenceIdeal.Gen
open Idealize.ShloMosaic Idealize.ShloMosaic.TcCoe Idealize.SL.Sem Idealize.ShloMosaic.ValueIdx Idealize.ShloMosaic.StableHlo
open Cert.Stage Cert.Hadamard

/-! ## The reference's operations, evaluated pass by pass

The run leaves every buffer at the fold of the 106 operations' results over the launch contents.  The fold is cut where the
passes begin and end: the first operation flattens the data, each of the next twelve groups of eight is one pass of the table
the group before left, and the last nine divide, multiply by the weights and add the bias. -/

/-- The reference's operations, in order. -/
abbrev L : List (HloOp τ sig (Elt Ideal)) := Cert.ReferenceIdeal.RefRun.ops (F := Ideal)

/-- The first operation: the data as 8192 tables of 4096 rows and one column. -/
theorem pre (V : Valuation τ sig (Elt Ideal)) :
    StableHlo.after (L.take 1) V (Proc.devRef .tc main_v0)
      = shapeCast S8192x4096x1 (V (Proc.devRef .tc main_arg0)) shapeCasts_S4x2048x4096_S8192x4096x1 := by
  simp only [L, Cert.ReferenceIdeal.RefRun.ops, List.take_succ_cons, List.take_zero]
  after_results_simp
  rfl

/-- Pass 1 of twelve: operations 2 to 9 turn the table `[8192, 4096, 1]` into `[8192, 2048, 2]`. -/
theorem stage0 (V : Valuation τ sig (Elt Ideal)) :
    StableHlo.after (L.take 9) V (Proc.devRef .tc main_v8)
      = pass (B := 8192) (m2 := 4096) (m := 2048) (c := 1) (c2 := 2)
          (by decide) (by decide) (by decide) (by decide) (by decide)
          (StableHlo.after (L.take 1) V (Proc.devRef .tc main_v0)) := by
  show StableHlo.after (L.take (1 + 8)) V _ = _
  rw [List.take_add, StableHlo.after_append]
  generalize StableHlo.after (L.take 1) V = U
  simp only [L, Cert.ReferenceIdeal.RefRun.ops, List.drop_succ_cons, List.drop_zero, List.take_succ_cons, List.take_zero]
  after_results_simp
  rfl

/-- Pass 2 of twelve: operations 10 to 17 turn the table `[8192, 2048, 2]` into `[8192, 1024, 4]`. -/
theorem stage1 (V : Valuation τ sig (Elt Ideal)) :
    StableHlo.after (L.take 17) V (Proc.devRef .tc main_v16)
      = pass (B := 8192) (m2 := 2048) (m := 1024) (c := 2) (c2 := 4)
          (by decide) (by decide) (by decide) (by decide) (by decide)
          (StableHlo.after (L.take 9) V (Proc.devRef .tc main_v8)) := by
  show StableHlo.after (L.take (9 + 8)) V _ = _
  rw [List.take_add, StableHlo.after_append]
  generalize StableHlo.after (L.take 9) V = U
  simp only [L, Cert.ReferenceIdeal.RefRun.ops, List.drop_succ_cons, List.drop_zero, List.take_succ_cons, List.take_zero]
  after_results_simp
  rfl

/-- Pass 3 of twelve: operations 18 to 25 turn the table `[8192, 1024, 4]` into `[8192, 512, 8]`. -/
theorem stage2 (V : Valuation τ sig (Elt Ideal)) :
    StableHlo.after (L.take 25) V (Proc.devRef .tc main_v24)
      = pass (B := 8192) (m2 := 1024) (m := 512) (c := 4) (c2 := 8)
          (by decide) (by decide) (by decide) (by decide) (by decide)
          (StableHlo.after (L.take 17) V (Proc.devRef .tc main_v16)) := by
  show StableHlo.after (L.take (17 + 8)) V _ = _
  rw [List.take_add, StableHlo.after_append]
  generalize StableHlo.after (L.take 17) V = U
  simp only [L, Cert.ReferenceIdeal.RefRun.ops, List.drop_succ_cons, List.drop_zero, List.take_succ_cons, List.take_zero]
  after_results_simp
  rfl

/-- Pass 4 of twelve: operations 26 to 33 turn the table `[8192, 512, 8]` into `[8192, 256, 16]`. -/
theorem stage3 (V : Valuation τ sig (Elt Ideal)) :
    StableHlo.after (L.take 33) V (Proc.devRef .tc main_v32)
      = pass (B := 8192) (m2 := 512) (m := 256) (c := 8) (c2 := 16)
          (by decide) (by decide) (by decide) (by decide) (by decide)
          (StableHlo.after (L.take 25) V (Proc.devRef .tc main_v24)) := by
  show StableHlo.after (L.take (25 + 8)) V _ = _
  rw [List.take_add, StableHlo.after_append]
  generalize StableHlo.after (L.take 25) V = U
  simp only [L, Cert.ReferenceIdeal.RefRun.ops, List.drop_succ_cons, List.drop_zero, List.take_succ_cons, List.take_zero]
  after_results_simp
  rfl

/-- Pass 5 of twelve: operations 34 to 41 turn the table `[8192, 256, 16]` into `[8192, 128, 32]`. -/
theorem stage4 (V : Valuation τ sig (Elt Ideal)) :
    StableHlo.after (L.take 41) V (Proc.devRef .tc main_v40)
      = pass (B := 8192) (m2 := 256) (m := 128) (c := 16) (c2 := 32)
          (by decide) (by decide) (by decide) (by decide) (by decide)
          (StableHlo.after (L.take 33) V (Proc.devRef .tc main_v32)) := by
  show StableHlo.after (L.take (33 + 8)) V _ = _
  rw [List.take_add, StableHlo.after_append]
  generalize StableHlo.after (L.take 33) V = U
  simp only [L, Cert.ReferenceIdeal.RefRun.ops, List.drop_succ_cons, List.drop_zero, List.take_succ_cons, List.take_zero]
  after_results_simp
  rfl

/-- Pass 6 of twelve: operations 42 to 49 turn the table `[8192, 128, 32]` into `[8192, 64, 64]`. -/
theorem stage5 (V : Valuation τ sig (Elt Ideal)) :
    StableHlo.after (L.take 49) V (Proc.devRef .tc main_v48)
      = pass (B := 8192) (m2 := 128) (m := 64) (c := 32) (c2 := 64)
          (by decide) (by decide) (by decide) (by decide) (by decide)
          (StableHlo.after (L.take 41) V (Proc.devRef .tc main_v40)) := by
  show StableHlo.after (L.take (41 + 8)) V _ = _
  rw [List.take_add, StableHlo.after_append]
  generalize StableHlo.after (L.take 41) V = U
  simp only [L, Cert.ReferenceIdeal.RefRun.ops, List.drop_succ_cons, List.drop_zero, List.take_succ_cons, List.take_zero]
  after_results_simp
  rfl

/-- Pass 7 of twelve: operations 50 to 57 turn the table `[8192, 64, 64]` into `[8192, 32, 128]`. -/
theorem stage6 (V : Valuation τ sig (Elt Ideal)) :
    StableHlo.after (L.take 57) V (Proc.devRef .tc main_v56)
      = pass (B := 8192) (m2 := 64) (m := 32) (c := 64) (c2 := 128)
          (by decide) (by decide) (by decide) (by decide) (by decide)
          (StableHlo.after (L.take 49) V (Proc.devRef .tc main_v48)) := by
  show StableHlo.after (L.take (49 + 8)) V _ = _
  rw [List.take_add, StableHlo.after_append]
  generalize StableHlo.after (L.take 49) V = U
  simp only [L, Cert.ReferenceIdeal.RefRun.ops, List.drop_succ_cons, List.drop_zero, List.take_succ_cons, List.take_zero]
  after_results_simp
  rfl

/-- Pass 8 of twelve: operations 58 to 65 turn the table `[8192, 32, 128]` into `[8192, 16, 256]`. -/
theorem stage7 (V : Valuation τ sig (Elt Ideal)) :
    StableHlo.after (L.take 65) V (Proc.devRef .tc main_v64)
      = pass (B := 8192) (m2 := 32) (m := 16) (c := 128) (c2 := 256)
          (by decide) (by decide) (by decide) (by decide) (by decide)
          (StableHlo.after (L.take 57) V (Proc.devRef .tc main_v56)) := by
  show StableHlo.after (L.take (57 + 8)) V _ = _
  rw [List.take_add, StableHlo.after_append]
  generalize StableHlo.after (L.take 57) V = U
  simp only [L, Cert.ReferenceIdeal.RefRun.ops, List.drop_succ_cons, List.drop_zero, List.take_succ_cons, List.take_zero]
  after_results_simp
  rfl

/-- Pass 9 of twelve: operations 66 to 73 turn the table `[8192, 16, 256]` into `[8192, 8, 512]`. -/
theorem stage8 (V : Valuation τ sig (Elt Ideal)) :
    StableHlo.after (L.take 73) V (Proc.devRef .tc main_v72)
      = pass (B := 8192) (m2 := 16) (m := 8) (c := 256) (c2 := 512)
          (by decide) (by decide) (by decide) (by decide) (by decide)
          (StableHlo.after (L.take 65) V (Proc.devRef .tc main_v64)) := by
  show StableHlo.after (L.take (65 + 8)) V _ = _
  rw [List.take_add, StableHlo.after_append]
  generalize StableHlo.after (L.take 65) V = U
  simp only [L, Cert.ReferenceIdeal.RefRun.ops, List.drop_succ_cons, List.drop_zero, List.take_succ_cons, List.take_zero]
  after_results_simp
  rfl

/-- Pass 10 of twelve: operations 74 to 81 turn the table `[8192, 8, 512]` into `[8192, 4, 1024]`. -/
theorem stage9 (V : Valuation τ sig (Elt Ideal)) :
    StableHlo.after (L.take 81) V (Proc.devRef .tc main_v80)
      = pass (B := 8192) (m2 := 8) (m := 4) (c := 512) (c2 := 1024)
          (by decide) (by decide) (by decide) (by decide) (by decide)
          (StableHlo.after (L.take 73) V (Proc.devRef .tc main_v72)) := by
  show StableHlo.after (L.take (73 + 8)) V _ = _
  rw [List.take_add, StableHlo.after_append]
  generalize StableHlo.after (L.take 73) V = U
  simp only [L, Cert.ReferenceIdeal.RefRun.ops, List.drop_succ_cons, List.drop_zero, List.take_succ_cons, List.take_zero]
  after_results_simp
  rfl

/-- Pass 11 of twelve: operations 82 to 89 turn the table `[8192, 4, 1024]` into `[8192, 2, 2048]`. -/
theorem stage10 (V : Valuation τ sig (Elt Ideal)) :
    StableHlo.after (L.take 89) V (Proc.devRef .tc main_v88)
      = pass (B := 8192) (m2 := 4) (m := 2) (c := 1024) (c2 := 2048)
          (by decide) (by decide) (by decide) (by decide) (by decide)
          (StableHlo.after (L.take 81) V (Proc.devRef .tc main_v80)) := by
  show StableHlo.after (L.take (81 + 8)) V _ = _
  rw [List.take_add, StableHlo.after_append]
  generalize StableHlo.after (L.take 81) V = U
  simp only [L, Cert.ReferenceIdeal.RefRun.ops, List.drop_succ_cons, List.drop_zero, List.take_succ_cons, List.take_zero]
  after_results_simp
  rfl

/-- Pass 12 of twelve: operations 90 to 97 turn the table `[8192, 2, 2048]` into `[8192, 1, 4096]`. -/
theorem stage11 (V : Valuation τ sig (Elt Ideal)) :
    StableHlo.after (L.take 97) V (Proc.devRef .tc main_v96)
      = pass (B := 8192) (m2 := 2) (m := 1) (c := 2048) (c2 := 4096)
          (by decide) (by decide) (by decide) (by decide) (by decide)
          (StableHlo.after (L.take 89) V (Proc.devRef .tc main_v88)) := by
  show StableHlo.after (L.take (89 + 8)) V _ = _
  rw [List.take_add, StableHlo.after_append]
  generalize StableHlo.after (L.take 89) V = U
  simp only [L, Cert.ReferenceIdeal.RefRun.ops, List.drop_succ_cons, List.drop_zero, List.take_succ_cons, List.take_zero]
  after_results_simp
  rfl

/-- After the twelve passes: the transform of every row of the data. -/
theorem passes (V : Valuation τ sig (Elt Ideal)) :
    StableHlo.after (L.take 97) V (Proc.devRef .tc main_v96)
      = had8192 (shapeCast S8192x4096x1 (V (Proc.devRef .tc main_arg0)) shapeCasts_S4x2048x4096_S8192x4096x1) := by
  rw [stage11, stage10, stage9, stage8, stage7, stage6, stage5, stage4, stage3, stage2, stage1, stage0, pre]
  rfl

/-- The first 97 operations write neither the weights nor the bias. -/
theorem kept1 (V : Valuation τ sig (Elt Ideal)) :
    StableHlo.after (L.take 97) V (Proc.devRef .tc main_arg1) = V (Proc.devRef .tc main_arg1) := by
  simp only [L, Cert.ReferenceIdeal.RefRun.ops, List.take_succ_cons, List.take_zero]
  after_results_simp

theorem kept2 (V : Valuation τ sig (Elt Ideal)) :
    StableHlo.after (L.take 97) V (Proc.devRef .tc main_arg2) = V (Proc.devRef .tc main_arg2) := by
  simp only [L, Cert.ReferenceIdeal.RefRun.ops, List.take_succ_cons, List.take_zero]
  after_results_simp

/-- The last nine operations: divide by `sqrt 4096`, multiply by the weights, add the bias. -/
theorem result_eq (V : Valuation τ sig (Elt Ideal)) :
    StableHlo.after L V (Proc.devRef .tc main_v104)
      = refOut (V (Proc.devRef .tc main_arg0)) (V (Proc.devRef .tc main_arg1)) (V (Proc.devRef .tc main_arg2)) := by
  rw [← List.take_append_drop 97 L, StableHlo.after_append]
  have h96 := passes V
  have h1 := kept1 V
  have h2 := kept2 V
  revert h96 h1 h2
  generalize StableHlo.after (L.take 97) V = U
  intro h96 h1 h2
  simp only [L, Cert.ReferenceIdeal.RefRun.ops, List.drop_succ_cons, List.drop_zero]
  after_results_simp
  rw [h96, h1, h2]
  rfl

/-- No operation writes an argument. -/
theorem arg_kept (V : Valuation τ sig (Elt Ideal)) :
    StableHlo.after L V (Proc.devRef .tc main_arg0) = V (Proc.devRef .tc main_arg0)
    ∧ StableHlo.after L V (Proc.devRef .tc main_arg1) = V (Proc.devRef .tc main_arg1)
    ∧ StableHlo.after L V (Proc.devRef .tc main_arg2) = V (Proc.devRef .tc main_arg2) := by
  refine ⟨?_, ?_, ?_⟩ <;> (simp only [L, Cert.ReferenceIdeal.RefRun.ops]; after_results_simp)

/-! ## The run -/

/-- Every weakly fair execution of the reference ends with its result at `refOut` of the arguments, which end unchanged. -/
theorem run_refOut (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v104)
        = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v104).trans (result_eq (launchContents m c)),
       (h c main_arg0).trans (arg_kept (launchContents m c)).1,
       (h c main_arg1).trans (arg_kept (launchContents m c)).2.1,
       (h c main_arg2).trans (arg_kept (launchContents m c)).2.2⟩)
    (Cert.ReferenceIdeal.RefRun.run_after (F := Ideal) m ρ)

end Cert.ReferenceIdeal.RefValue

end
-- ==== Proof.KernelHost.lean ====
/-
  The host side of the kernel program, read back.

  Before the kernel runs, the host flattens the data `[4, 2048, 4096]` to `[8192, 4096]`, views the bias `[4096]` as
  `[1, 4096]`, and prepares the weight operand: each row of `W` goes through the twelve butterfly passes, the result is
  divided by `sqrt 4096`, transposed, and narrowed to bf16 (the identity on extended reals).  The host operations are
  read in stretches — the first two, then eight per pass, then the last eight —, each stretch for an arbitrary state
  before it, and the stretches are then chained.  Read at an index, entry `(k, o)` of the prepared weight operand is
  coefficient `k` of the transform of row `o` of `W`, over `sqrt 4096`.
-/
import proofs.«141641_j90692529423063_2_alg».proof.Proof.Gen.KernelIdeal.Frame
import proofs.«141641_j90692529423063_2_alg».proof.Proof.Transform
import Idealize.ShloMosaic.Lib.IdealHost
import Idealize.ShloMosaic.Lib.StableHlo.Run

noncomputable section

set_option Elab.async false

namespace Cert.KernelIdeal.HostSide

open Idealize.ShloMosaic Idealize.ShloMosaic.ValueIdx Idealize.ShloMosaic.TcCoe Idealize.SL.Sem
open Cert.KernelIdeal Cert.KernelIdeal.Gen

/-- The weight operand as the host prepares it: every row of `W` transformed, divided by `sqrt 4096`, the matrix
  transposed and narrowed to bf16. -/
def wtOf (W : FVec Ideal S4096x4096 .f32) : FVec Ideal S4096x4096 .bf16 :=
  truncf .bf16
    (transpose S4096x4096 [1, 0]
      (Host.divf
        (shapeCast S4096x4096
          (Cert.Stage.had4096 (shapeCast S4096x4096x1 W shapeCasts_S4096x4096_S4096x4096x1))
          shapeCasts_S4096x1x4096_S4096x4096)
        (broadcastInDim S4096x4096 ![] bcast_S_S4096x4096 (Host.sqrt (constant (F := Ideal) S_ .f32 0x45800000#32))))
      transposes_S4096x4096_S4096x4096_1_0)
    bitsLt_bf16_f32

variable (m : (ℓ : Loc nD τ sig) → Buf (Elt Ideal) ℓ) (c : Dev nD)

/-- The flattened data: no later host operation writes it. -/
theorem V_v0 : Gen.V m c main_v0
    = shapeCast S8192x4096 (m ((c : Thread nD τ).loc main_arg0)) shapeCasts_S4x2048x4096_S8192x4096 := by
  show StableHlo.after hostOps0 (fun b => m (c, b)) (Proc.devRef .tc main_v0) = _
  after_results_simp
  rfl

/-- The bias as a one-row matrix. -/
theorem V_v104 : Gen.V m c main_v104
    = shapeCast S1x4096 (m ((c : Thread nD τ).loc main_arg2)) shapeCasts_S4096_S1x4096 := by
  show StableHlo.after hostOps0 (fun b => m (c, b)) (Proc.devRef .tc main_v104) = _
  after_results_simp
  rfl

/-- The host operations before the kernel, in order. -/
abbrev L : List (HloOp τ sig (Elt Ideal)) := hostOps0 (F := Ideal)

/-- The first two host operations: the weight matrix viewed as `4096` tables of `4096` rows and one column. -/
theorem pre (V : Valuation τ sig (Elt Ideal)) :
    StableHlo.after (L.take 2) V (Proc.devRef .tc main_v1)
      = shapeCast S4096x4096x1 (V (Proc.devRef .tc main_arg1)) shapeCasts_S4096x4096_S4096x4096x1 := by
  simp only [L, hostOps0, List.take_succ_cons, List.take_zero]
  after_results_simp
  rfl

/-- Pass 1 of twelve: host operations 3 to 10 turn the table `[4096, 4096, 1]` into `[4096, 2048, 2]`. -/
theorem stage0 (V : Valuation τ sig (Elt Ideal)) :
    StableHlo.after (L.take 10) V (Proc.devRef .tc main_v9)
      = Cert.Stage.pass (B := 4096) (m2 := 4096) (m := 2048) (c := 1) (c2 := 2)
          (by decide) (by decide) (by decide) (by decide) (by decide)
          (StableHlo.after (L.take 2) V (Proc.devRef .tc main_v1)) := by
  show StableHlo.after (L.take (2 + 8)) V _ = _
  rw [List.take_add, StableHlo.after_append]
  generalize StableHlo.after (L.take 2) V = U
  simp only [L, hostOps0, List.drop_succ_cons, List.drop_zero, List.take_succ_cons, List.take_zero]
  after_results_simp
  rfl

/-- Pass 2 of twelve: host operations 11 to 18 turn the table `[4096, 2048, 2]` into `[4096, 1024, 4]`. -/
theorem stage1 (V : Valuation τ sig (Elt Ideal)) :
    StableHlo.after (L.take 18) V (Proc.devRef .tc main_v17)
      = Cert.Stage.pass (B := 4096) (m2 := 2048) (m := 1024) (c := 2) (c2 := 4)
          (by decide) (by decide) (by decide) (by decide) (by decide)
          (StableHlo.after (L.take 10) V (Proc.devRef .tc main_v9)) := by
  show StableHlo.after (L.take (10 + 8)) V _ = _
  rw [List.take_add, StableHlo.after_append]
  generalize StableHlo.after (L.take 10) V = U
  simp only [L, hostOps0, List.drop_succ_cons, List.drop_zero, List.take_succ_cons, List.take_zero]
  after_results_simp
  rfl

/-- Pass 3 of twelve: host operations 19 to 26 turn the table `[4096, 1024, 4]` into `[4096, 512, 8]`. -/
theorem stage2 (V : Valuation τ sig (Elt Ideal)) :
    StableHlo.after (L.take 26) V (Proc.devRef .tc main_v25)
      = Cert.Stage.pass (B := 4096) (m2 := 1024) (m := 512) (c := 4) (c2 := 8)
          (by decide) (by decide) (by decide) (by decide) (by decide)
          (StableHlo.after (L.take 18) V (Proc.devRef .tc main_v17)) := by
  show StableHlo.after (L.take (18 + 8)) V _ = _
  rw [List.take_add, StableHlo.after_append]
  generalize StableHlo.after (L.take 18) V = U
  simp only [L, hostOps0, List.drop_succ_cons, List.drop_zero, List.take_succ_cons, List.take_zero]
  after_results_simp
  rfl

/-- Pass 4 of twelve: host operations 27 to 34 turn the table `[4096, 512, 8]` into `[4096, 256, 16]`. -/
theorem stage3 (V : Valuation τ sig (Elt Ideal)) :
    StableHlo.after (L.take 34) V (Proc.devRef .tc main_v33)
      = Cert.Stage.pass (B := 4096) (m2 := 512) (m := 256) (c := 8) (c2 := 16)
          (by decide) (by decide) (by decide) (by decide) (by decide)
          (StableHlo.after (L.take 26) V (Proc.devRef .tc main_v25)) := by
  show StableHlo.after (L.take (26 + 8)) V _ = _
  rw [List.take_add, StableHlo.after_append]
  generalize StableHlo.after (L.take 26) V = U
  simp only [L, hostOps0, List.drop_succ_cons, List.drop_zero, List.take_succ_cons, List.take_zero]
  after_results_simp
  rfl

/-- Pass 5 of twelve: host operations 35 to 42 turn the table `[4096, 256, 16]` into `[4096, 128, 32]`. -/
theorem stage4 (V : Valuation τ sig (Elt Ideal)) :
    StableHlo.after (L.take 42) V (Proc.devRef .tc main_v41)
      = Cert.Stage.pass (B := 4096) (m2 := 256) (m := 128) (c := 16) (c2 := 32)
          (by decide) (by decide) (by decide) (by decide) (by decide)
          (StableHlo.after (L.take 34) V (Proc.devRef .tc main_v33)) := by
  show StableHlo.after (L.take (34 + 8)) V _ = _
  rw [List.take_add, StableHlo.after_append]
  generalize StableHlo.after (L.take 34) V = U
  simp only [L, hostOps0, List.drop_succ_cons, List.drop_zero, List.take_succ_cons, List.take_zero]
  after_results_simp
  rfl

/-- Pass 6 of twelve: host operations 43 to 50 turn the table `[4096, 128, 32]` into `[4096, 64, 64]`. -/
theorem stage5 (V : Valuation τ sig (Elt Ideal)) :
    StableHlo.after (L.take 50) V (Proc.devRef .tc main_v49)
      = Cert.Stage.pass (B := 4096) (m2 := 128) (m := 64) (c := 32) (c2 := 64)
          (by decide) (by decide) (by decide) (by decide) (by decide)
          (StableHlo.after (L.take 42) V (Proc.devRef .tc main_v41)) := by
  show StableHlo.after (L.take (42 + 8)) V _ = _
  rw [List.take_add, StableHlo.after_append]
  generalize StableHlo.after (L.take 42) V = U
  simp only [L, hostOps0, List.drop_succ_cons, List.drop_zero, List.take_succ_cons, List.take_zero]
  after_results_simp
  rfl

/-- Pass 7 of twelve: host operations 51 to 58 turn the table `[4096, 64, 64]` into `[4096, 32, 128]`. -/
theorem stage6 (V : Valuation τ sig (Elt Ideal)) :
    StableHlo.after (L.take 58) V (Proc.devRef .tc main_v57)
      = Cert.Stage.pass (B := 4096) (m2 := 64) (m := 32) (c := 64) (c2 := 128)
          (by decide) (by decide) (by decide) (by decide) (by decide)
          (StableHlo.after (L.take 50) V (Proc.devRef .tc main_v49)) := by
  show StableHlo.after (L.take (50 + 8)) V _ = _
  rw [List.take_add, StableHlo.after_append]
  generalize StableHlo.after (L.take 50) V = U
  simp only [L, hostOps0, List.drop_succ_cons, List.drop_zero, List.take_succ_cons, List.take_zero]
  after_results_simp
  rfl

/-- Pass 8 of twelve: host operations 59 to 66 turn the table `[4096, 32, 128]` into `[4096, 16, 256]`. -/
theorem stage7 (V : Valuation τ sig (Elt Ideal)) :
    StableHlo.after (L.take 66) V (Proc.devRef .tc main_v65)
      = Cert.Stage.pass (B := 4096) (m2 := 32) (m := 16) (c := 128) (c2 := 256)
          (by decide) (by decide) (by decide) (by decide) (by decide)
          (StableHlo.after (L.take 58) V (Proc.devRef .tc main_v57)) := by
  show StableHlo.after (L.take (58 + 8)) V _ = _
  rw [List.take_add, StableHlo.after_append]
  generalize StableHlo.after (L.take 58) V = U
  simp only [L, hostOps0, List.drop_succ_cons, List.drop_zero, List.take_succ_cons, List.take_zero]
  after_results_simp
  rfl

/-- Pass 9 of twelve: host operations 67 to 74 turn the table `[4096, 16, 256]` into `[4096, 8, 512]`. -/
theorem stage8 (V : Valuation τ sig (Elt Ideal)) :
    StableHlo.after (L.take 74) V (Proc.devRef .tc main_v73)
      = Cert.Stage.pass (B := 4096) (m2 := 16) (m := 8) (c := 256) (c2 := 512)
          (by decide) (by decide) (by decide) (by decide) (by decide)
          (StableHlo.after (L.take 66) V (Proc.devRef .tc main_v65)) := by
  show StableHlo.after (L.take (66 + 8)) V _ = _
  rw [List.take_add, StableHlo.after_append]
  generalize StableHlo.after (L.take 66) V = U
  simp only [L, hostOps0, List.drop_succ_cons, List.drop_zero, List.take_succ_cons, List.take_zero]
  after_results_simp
  rfl

/-- Pass 10 of twelve: host operations 75 to 82 turn the table `[4096, 8, 512]` into `[4096, 4, 1024]`. -/
theorem stage9 (V : Valuation τ sig (Elt Ideal)) :
    StableHlo.after (L.take 82) V (Proc.devRef .tc main_v81)
      = Cert.Stage.pass (B := 4096) (m2 := 8) (m := 4) (c := 512) (c2 := 1024)
          (by decide) (by decide) (by decide) (by decide) (by decide)
          (StableHlo.after (L.take 74) V (Proc.devRef .tc main_v73)) := by
  show StableHlo.after (L.take (74 + 8)) V _ = _
  rw [List.take_add, StableHlo.after_append]
  generalize StableHlo.after (L.take 74) V = U
  simp only [L, hostOps0, List.drop_succ_cons, List.drop_zero, List.take_succ_cons, List.take_zero]
  after_results_simp
  rfl

/-- Pass 11 of twelve: host operations 83 to 90 turn the table `[4096, 4, 1024]` into `[4096, 2, 2048]`. -/
theorem stage10 (V : Valuation τ sig (Elt Ideal)) :
    StableHlo.after (L.take 90) V (Proc.devRef .tc main_v89)
      = Cert.Stage.pass (B := 4096) (m2 := 4) (m := 2) (c := 1024) (c2 := 2048)
          (by decide) (by decide) (by decide) (by decide) (by decide)
          (StableHlo.after (L.take 82) V (Proc.devRef .tc main_v81)) := by
  show StableHlo.after (L.take (82 + 8)) V _ = _
  rw [List.take_add, StableHlo.after_append]
  generalize StableHlo.after (L.take 82) V = U
  simp only [L, hostOps0, List.drop_succ_cons, List.drop_zero, List.take_succ_cons, List.take_zero]
  after_results_simp
  rfl

/-- Pass 12 of twelve: host operations 91 to 98 turn the table `[4096, 2, 2048]` into `[4096, 1, 4096]`. -/
theorem stage11 (V : Valuation τ sig (Elt Ideal)) :
    StableHlo.after (L.take 98) V (Proc.devRef .tc main_v97)
      = Cert.Stage.pass (B := 4096) (m2 := 2) (m := 1) (c := 2048) (c2 := 4096)
          (by decide) (by decide) (by decide) (by decide) (by decide)
          (StableHlo.after (L.take 90) V (Proc.devRef .tc main_v89)) := by
  show StableHlo.after (L.take (90 + 8)) V _ = _
  rw [List.take_add, StableHlo.after_append]
  generalize StableHlo.after (L.take 90) V = U
  simp only [L, hostOps0, List.drop_succ_cons, List.drop_zero, List.take_succ_cons, List.take_zero]
  after_results_simp
  rfl

/-- The last eight host operations: drop the unit axis, divide by `sqrt 4096`, transpose, narrow to bf16. -/
theorem post (V : Valuation τ sig (Elt Ideal)) :
    StableHlo.after (L.take 106) V (Proc.devRef .tc main_v103)
      = truncf .bf16
          (transpose S4096x4096 [1, 0]
            (Host.divf
              (shapeCast S4096x4096 (StableHlo.after (L.take 98) V (Proc.devRef .tc main_v97)) shapeCasts_S4096x1x4096_S4096x4096)
              (broadcastInDim S4096x4096 ![] bcast_S_S4096x4096 (Host.sqrt (constant (F := Ideal) S_ .f32 0x45800000#32))))
            transposes_S4096x4096_S4096x4096_1_0)
          bitsLt_bf16_f32 := by
  show StableHlo.after (L.take (98 + 8)) V _ = _
  rw [List.take_add, StableHlo.after_append]
  generalize StableHlo.after (L.take 98) V = U
  simp only [L, hostOps0, List.drop_succ_cons, List.drop_zero, List.take_succ_cons, List.take_zero]
  after_results_simp
  rfl

/-- The weight operand as the kernel finds it: the twelve passes composed, then the last eight operations. -/
theorem V_v103 : Gen.V m c main_v103 = wtOf (m ((c : Thread nD τ).loc main_arg1)) := by
  show StableHlo.after (L.take 106) (fun b => m (c, b)) (Proc.devRef .tc main_v103) = _
  rw [post, stage11, stage10, stage9, stage8, stage7, stage6, stage5, stage4, stage3, stage2, stage1, stage0, pre]
  rfl

/-- Row `o` of `W` as a sequence (zero past its `4096` entries). -/
def rowW (W : FVec Ideal S4096x4096 .f32) (o : Fin 4096) : ℕ → EReal :=
  fun i => if h : i < 4096 then W (ix2 o ⟨i, h⟩) else 0

/-- The prepared weight operand at `(k, o)`: coefficient `k` of the transform of row `o` of `W`, over `sqrt 4096`. -/
theorem wtOf_apply (W : FVec Ideal S4096x4096 .f32) (k o : Fin 4096) :
    wtOf W (ix2 k o)
      = Ideal.div (Cert.Hadamard.bf (rowW W o) 12 0 k.val) (Ideal.sqrt (Ideal.ofBits .f32 0x45800000#32)) := by
  have hC : ∀ (i : Fin 4096) (q : Fin 1),
      shapeCast S4096x4096x1 W shapeCasts_S4096x4096_S4096x4096x1 (ix3 o i q)
        = Cert.Hadamard.bf (rowW W o) 0 i.val q.val := by
    intro i q
    have hq : q.val = 0 := by omega
    rw [Cert.Hadamard.bf_zero,
      shapeCast_apply W shapeCasts_S4096x4096_S4096x4096x1 (ix3 o i q) (ix2 o i) (by
        rw [Shape.rowMajor_val_two, Shape.rowMajor_val_three]
        show o.val * 4096 + i.val = (o.val * 4096 + i.val) * 1 + q.val
        omega)]
    show W (ix2 o i) = if h : i.val < 4096 then W (ix2 o ⟨i.val, h⟩) else 0
    rw [dif_pos i.isLt]
  unfold wtOf
  rw [truncf_apply,
    transpose_apply [1, 0] _ transposes_S4096x4096_S4096x4096_1_0 (ix2 k o) (ix2 o k)
      (fun b => match b with | ⟨0, _⟩ => rfl | ⟨1, _⟩ => rfl),
    hostDivf_apply,
    shapeCast_apply _ shapeCasts_S4096x1x4096_S4096x4096 (ix2 o k) (ix3 o (0 : Fin 1) k) (by
      rw [Shape.rowMajor_val_two, Shape.rowMajor_val_three]
      show (o.val * 1 + 0) * 4096 + k.val = o.val * 4096 + k.val
      omega),
    Cert.Stage.had4096_apply (rowW W o) o _ hC k,
    broadcastInDim_scalar_apply]
  rfl

/-- The flattened data at row `r = a · 2048 + s` is the data at `(a, s)`. -/
theorem v0_apply (X : FVec Ideal S4x2048x4096 .f32) (a : Fin 4) (s : Fin 2048) (k : Fin 4096) (r : Fin 8192)
    (hr : r.val = a.val * 2048 + s.val) :
    shapeCast S8192x4096 X shapeCasts_S4x2048x4096_S8192x4096 (ix2 r k) = X (ix3 a s k) := by
  refine shapeCast_apply X _ (ix2 r k) (ix3 a s k) ?_
  rw [Shape.rowMajor_val_three, Shape.rowMajor_val_two]
  show (a.val * 2048 + s.val) * 4096 + k.val = r.val * 4096 + k.val
  rw [hr]

/-- The bias as a one-row matrix reads the bias. -/
theorem v104_apply (b : FVec Ideal S4096 .f32) (o : Fin 4096) :
    shapeCast S1x4096 b shapeCasts_S4096_S1x4096 (ix2 (0 : Fin 1) o) = b (ix1 o) := by
  refine shapeCast_apply b _ (ix2 (0 : Fin 1) o) (ix1 o) ?_
  rw [Shape.rowMajor_val_one, Shape.rowMajor_val_two]
  show o.val = 0 * 4096 + o.val
  omega

end Cert.KernelIdeal.HostSide

end
-- ==== Proof.KernelBlocks.lean ====
/-
  The kernel's output array, read off its run.

  The kernel walks 32 grid points; point `t` holds rows `256 t … 256 t + 255` of the data `X` (8192 × 4096), the whole
  weight matrix `Wt` (4096 × 4096) and the whole bias row `b2` (1 × 4096), and writes rows `256 t … 256 t + 255` of the
  output: entry `(r, o)` is `(∑ k, X (r, k) · Wt (k, o)) + b2 (0, o)`.  Narrowing a value to a shorter float format changes
  nothing at the ideal values, and a matrix product accumulated into zeros is the plain sum over the contracted index.
  Every row lies in exactly one block (row `r` in block `r / 256`), so the 32 blocks written back make up the one function
  `gemmBias X Wt b2` of the three arrays.  After the region the host reshapes the output to 4 × 2048 × 4096.
-/
import proofs.«141641_j90692529423063_2_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

/-! ## The specification -/

/-- The product of the data with the weights plus the bias row, entry by entry: `(r, o) ↦ (∑ k, X (r, k) · Wt (k, o)) + b2 (0, o)`. -/
def gemmBias (X : FVec Ideal S8192x4096 .f32) (Wt : FVec Ideal S4096x4096 .bf16) (b2 : FVec Ideal S1x4096 .f32) :
    S8192x4096.Idx → EReal :=
  fun j => (∑ k : Fin 4096, X (ix2 (j 0) k) * Wt (ix2 k (j 1))) + b2 (ix2 0 (j 1))

/-! ## One block's arithmetic at an entry -/

/-- Where the product reads its left factor: the row is the output's row, -/
theorem lhs_0 (i : S256x4096.Idx) (q : dot_S256x4096_S4096x4096_S256x4096_1_0_0_1_n_n.contr.Idx) :
    (dot_S256x4096_S4096x4096_S256x4096_1_0_0_1_n_n.lhsIdx i q 0).val = (i 0).val := by
  unfold DotDims.lhsIdx
  rw [dif_neg (show ¬(0 : Fin S256x4096.rank) ∈ dot_S256x4096_S4096x4096_S256x4096_1_0_0_1_n_n.lhsBatch by decide),
    dif_pos (show (0 : Fin S256x4096.rank) ∈ dot_S256x4096_S4096x4096_S256x4096_1_0_0_1_n_n.lhsNonContracting by decide)]
  rfl
/-- the column the contracted index; -/
theorem lhs_1 (i : S256x4096.Idx) (q : dot_S256x4096_S4096x4096_S256x4096_1_0_0_1_n_n.contr.Idx) :
    (dot_S256x4096_S4096x4096_S256x4096_1_0_0_1_n_n.lhsIdx i q 1).val = (q ⟨0, by decide⟩).val :=
  dot_S256x4096_S4096x4096_S256x4096_1_0_0_1_n_n.lhsIdx_val_of_single rfl i q
/-- and its right factor: the row is the contracted index, -/
theorem rhs_0 (i : S256x4096.Idx) (q : dot_S256x4096_S4096x4096_S256x4096_1_0_0_1_n_n.contr.Idx) :
    (dot_S256x4096_S4096x4096_S256x4096_1_0_0_1_n_n.rhsIdx i q 0).val = (q ⟨0, by decide⟩).val :=
  dot_S256x4096_S4096x4096_S256x4096_1_0_0_1_n_n.rhsIdx_val_of_single rfl i q
/-- the column the output's column. -/
theorem rhs_1 (i : S256x4096.Idx) (q : dot_S256x4096_S4096x4096_S256x4096_1_0_0_1_n_n.contr.Idx) :
    (dot_S256x4096_S4096x4096_S256x4096_1_0_0_1_n_n.rhsIdx i q 1).val = (i 1).val := by
  unfold DotDims.rhsIdx
  rw [dif_neg (show ¬(1 : Fin S4096x4096.rank) ∈ dot_S256x4096_S4096x4096_S256x4096_1_0_0_1_n_n.rhsBatch by decide),
    dif_pos (show (1 : Fin S4096x4096.rank) ∈ dot_S256x4096_S4096x4096_S256x4096_1_0_0_1_n_n.rhsNonContracting by decide)]
  rfl

/-- A block product accumulated into zeros, at entry `(p, q)`: the sum over the contracted index of the products. -/
theorem matmul_entry (l : FVec Ideal S256x4096 .bf16) (r : FVec Ideal S4096x4096 .bf16) (p : Fin 256) (q : Fin 4096) :
    matmul dot_S256x4096_S4096x4096_S256x4096_1_0_0_1_n_n none l r (constant (F := Ideal) S256x4096 .f32 0x00000000#32) (ix2 p q)
      = ∑ k : Fin 4096, l (ix2 p k) * r (ix2 k q) := by
  simp only [matmul]
  rw [Ideal.matmul_constant_zero_apply,
    ← Equiv.sum_comp (contrEquiv1 dot_S256x4096_S4096x4096_S256x4096_1_0_0_1_n_n 4096 rfl rfl).symm]
  refine Finset.sum_congr rfl fun k _ => ?_
  have hk := contrEquiv1_symm_val dot_S256x4096_S4096x4096_S256x4096_1_0_0_1_n_n 4096 rfl rfl k
  have el : dot_S256x4096_S4096x4096_S256x4096_1_0_0_1_n_n.lhsIdx (ix2 p q)
      ((contrEquiv1 dot_S256x4096_S4096x4096_S256x4096_1_0_0_1_n_n 4096 rfl rfl).symm k) = ix2 p k :=
    funext fun a => Fin.ext (by
      match a with
      | ⟨0, _⟩ => exact lhs_0 _ _
      | ⟨1, _⟩ => exact (lhs_1 _ _).trans hk)
  have er : dot_S256x4096_S4096x4096_S256x4096_1_0_0_1_n_n.rhsIdx (ix2 p q)
      ((contrEquiv1 dot_S256x4096_S4096x4096_S256x4096_1_0_0_1_n_n 4096 rfl rfl).symm k) = ix2 k q :=
    funext fun a => Fin.ext (by
      match a with
      | ⟨0, _⟩ => exact (rhs_0 _ _).trans hk
      | ⟨1, _⟩ => exact rhs_1 _ _)
  rw [el, er]

/-- The bias row laid along each of the 256 rows of a block, at entry `(p, q)`: the row's entry `q`. -/
theorem bias_entry (v : FVec Ideal S1x4096 .f32) (p : Fin 256) (q : Fin 4096) :
    broadcastTo S256x4096 v broadcasts_S1x4096_S256x4096 (ix2 p q) = v (ix2 (0 : Fin 1) q) := by
  refine broadcastTo_apply v broadcasts_S1x4096_S256x4096 (ix2 p q) (ix2 (0 : Fin 1) q) ?_
  intro a
  match a with
  | ⟨0, _⟩ => rfl
  | ⟨1, _⟩ => rfl

/-- What the body stores, at entry `(p, q)` of its block: the row of the data block times the column of the weights,
    plus the bias at that column. -/
theorem pay_entry (x0 : Vec Ideal S256x4096 .f32) (x1 : Vec Ideal S4096x4096 .bf16) (x2 : Vec Ideal S1x4096 .f32)
    (p : Fin 256) (q : Fin 4096) :
    k0_pay1 x0 x1 x2 (ix2 p q) = (∑ k : Fin 4096, x0 (ix2 p k) * x1 (ix2 k q)) + x2 (ix2 (0 : Fin 1) q) := by
  unfold k0_pay1
  simp only [shapeCast_self]
  refine (addf_apply _ _ (ix2 p q)).trans ?_
  refine congrArg₂ (· + ·) ((matmul_entry _ _ p q).trans ?_) (bias_entry x2 p q)
  rfl

/-- A block's entry against the whole arrays: when the data block holds rows `256 t …` of the data and the other two
    blocks are the whole weights and the whole bias row, the body's entry `y` is the specification's entry `i` at row
    `256 t + y 0`, column `y 1`. -/
theorem block_entry (X : FVec Ideal S8192x4096 .f32) (Wt : FVec Ideal S4096x4096 .bf16) (b2 : FVec Ideal S1x4096 .f32)
    (x0 : Vec Ideal S256x4096 .f32) (x1 : Vec Ideal S4096x4096 .bf16) (x2 : Vec Ideal S1x4096 .f32)
    (y : S256x4096.Idx) (i : S8192x4096.Idx) (tv : Nat)
    (hi0 : (i 0).val = tv * 256 + (y 0).val) (hi1 : (i 1).val = (y 1).val)
    (h0 : ∀ (p : Fin 256) (k : Fin 4096) (r : Fin 8192), r.val = tv * 256 + p.val → x0 (ix2 p k) = X (ix2 r k))
    (h1 : x1 = Wt) (h2 : x2 = b2) :
    k0_pay1 x0 x1 x2 y = gemmBias X Wt b2 i := by
  obtain ⟨p, q, rfl⟩ : ∃ (p : Fin 256) (q : Fin 4096), y = ix2 p q := ⟨y 0, y 1, eq_ix2 y⟩
  obtain ⟨r, o, rfl⟩ : ∃ (r : Fin 8192) (o : Fin 4096), i = ix2 r o := ⟨i 0, i 1, eq_ix2 i⟩
  have hr : r.val = tv * 256 + p.val := hi0
  obtain rfl : o = q := Fin.ext hi1
  subst h1 h2
  rw [pay_entry]
  show _ = (∑ k : Fin 4096, X (ix2 r k) * x1 (ix2 k o)) + x2 (ix2 (0 : Fin 1) o)
  exact congrArg (· + x2 (ix2 (0 : Fin 1) o)) (Finset.sum_congr rfl fun k _ => congrArg (· * x1 (ix2 k o)) (h0 p k r hr))

/-! ## From the blocks to the array -/

theorem hz : (![0, 0] : Fin 2 → Nat) = fun _ => 0 := funext fun a => by fin_cases a <;> rfl

/-- The index maps over the 32 grid points: the data and the output move one block of rows per point, the weights and
    the bias stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point `t`'s data block is rows `256 t … 256 t + 255` of the data, whatever the data are. -/
theorem read_data (t : Fin cfg0.N) (A : Vec Ideal S8192x4096 .f32) (p : Fin 256) (k : Fin 4096) (r : Fin 8192)
    (hr : r.val = t.val * 256 + p.val) :
    ((cfg0.win 0).blk t).view.read (Elt Ideal) A (ix2 p k) = A (ix2 r k) := by
  obtain ⟨e0, e1, -, -, -, -, -, -⟩ := idx_facts t
  show A (((cfg0.win 0).blk t).view.emb (ix2 p k)) = A (ix2 r k)
  have e : ((cfg0.win 0).blk t).view.emb (ix2 p k) = ix2 r k := by
    funext a; apply Fin.ext
    match a with
    | ⟨0, _⟩ => show win0_0.index t (0 : Fin 2) * 256 + 1 * p.val = r.val; omega
    | ⟨1, _⟩ => show win0_0.index t (1 : Fin 2) * 4096 + 1 * k.val = k.val; omega
  rw [e]

/-- Every point's weight block is the whole weight matrix, -/
theorem read_weights (t : Fin cfg0.N) (A : Vec Ideal S4096x4096 .bf16) :
    ((cfg0.win 1).blk t).view.read (Elt Ideal) A = A := by
  obtain ⟨-, -, e2, e3, -, -, -, -⟩ := idx_facts t
  funext y
  show A (((cfg0.win 1).blk t).view.emb y) = A y
  have e : ((cfg0.win 1).blk t).view.emb y = y := by
    funext a; apply Fin.ext
    match a with
    | ⟨0, _⟩ => show win0_1.index t (0 : Fin 2) * 4096 + 1 * (y 0).val = (y 0).val; omega
    | ⟨1, _⟩ => show win0_1.index t (1 : Fin 2) * 4096 + 1 * (y 1).val = (y 1).val; omega
  rw [e]

/-- and its bias block the whole bias row. -/
theorem read_bias (t : Fin cfg0.N) (A : Vec Ideal S1x4096 .f32) :
    ((cfg0.win 2).blk t).view.read (Elt Ideal) A = A := by
  obtain ⟨-, -, -, -, e4, e5, -, -⟩ := idx_facts t
  funext y
  show A (((cfg0.win 2).blk t).view.emb y) = A y
  have e : ((cfg0.win 2).blk t).view.emb y = y := by
    funext a; apply Fin.ext
    match a with
    | ⟨0, _⟩ => show win0_2.index t (0 : Fin 2) * 1 + 1 * (y 0).val = (y 0).val; omega
    | ⟨1, _⟩ => show win0_2.index t (1 : Fin 2) * 4096 + 1 * (y 1).val = (y 1).val; omega
  rw [e]

/-- The body's result on point `t`'s blocks of ANY three arrays is block `t` of `gemmBias` of those arrays. -/
theorem block_eq (t : Fin cfg0.N) (X : Vec Ideal S8192x4096 .f32) (Wt : Vec Ideal S4096x4096 .bf16)
    (b2 : Vec Ideal S1x4096 .f32) :
    (cfg0.win 3).cut (grid0.coords t) (k0_pay1 (((cfg0.win 0).blk t).view.read (Elt Ideal) X)
        (((cfg0.win 1).blk t).view.read (Elt Ideal) Wt) (((cfg0.win 2).blk t).view.read (Elt Ideal) b2))
      = ((cfg0.win 3).blk t).view.read (Elt Ideal) (gemmBias X Wt b2) := by
  obtain ⟨-, -, -, -, -, -, e6, e7⟩ := idx_facts t
  funext j
  show k0_pay1 (((cfg0.win 0).blk t).view.read (Elt Ideal) X) (((cfg0.win 1).blk t).view.read (Elt Ideal) Wt)
      (((cfg0.win 2).blk t).view.read (Elt Ideal) b2) j
    = gemmBias X Wt b2 (((cfg0.win 3).blk t).view.emb j)
  have r0 : ((((cfg0.win 3).blk t).view.emb j) 0).val = t.val * 256 + (j 0).val := by
    show win0_3.index t (0 : Fin 2) * 256 + 1 * (j 0).val = _; omega
  have r1 : ((((cfg0.win 3).blk t).view.emb j) 1).val = (j 1).val := by
    show win0_3.index t (1 : Fin 2) * 4096 + 1 * (j 1).val = _; omega
  exact block_entry X Wt b2 (((cfg0.win 0).blk t).view.read (Elt Ideal) X) (((cfg0.win 1).blk t).view.read (Elt Ideal) Wt)
    (((cfg0.win 2).blk t).view.read (Elt Ideal) b2) j (((cfg0.win 3).blk t).view.emb j) t.val r0 r1
    (fun p k r hr => read_data t X p k r hr) (read_weights t Wt) (read_bias t b2)

variable (m : (ℓ : Loc nD τ sig) → Buf (Elt Ideal) ℓ) (ρ : Dev nD → PrngReg)

/-- What point `t` writes back is block `t` of `gemmBias` of the three arrays as the region finds them. -/
theorem flushed_eq (c : Dev nD) (t : Fin cfg0.N) :
    (dats m 0 c).flushed 3 t
      = ((cfg0.win 3).blk t).view.read (Elt Ideal) (gemmBias (V m c main_v0) (V m c main_v103) (V m c main_v104)) := by
  show (cfg0.win 3).cut (grid0.coords t) ((dats m 0 c).after 3 t) = _
  rw [after0_3]
  unfold out0_3
  rw [View.canon_unit_zero hz]
  simp only [View.ld_unit_zero (S := S256x4096) hz, View.ld_unit_zero (S := S4096x4096) hz, View.ld_unit_zero (S := S1x4096) hz]
  unfold iblk
  exact block_eq t (V m c main_v0) (V m c main_v103) (V m c main_v104)

/-- An index of the output array is in point `t`'s block iff each coordinate is in the block's range on its axis. -/
theorem mem_blk (t : Fin cfg0.N) (i : S8192x4096.Idx) :
    i ∈ ((cfg0.win 3).blk t).view.set ↔ ∀ a : Fin 2, win0_3.index t a * S256x4096.size a ≤ (i a).val
      ∧ (i a).val < win0_3.index t a * S256x4096.size a + S256x4096.size a := by
  show i ∈ ((View.whole main_v105).slice (win0_3.rect t)).set ↔ _
  rw [View.set_slice_whole, Rect.mem_set_unit]
  exact Iff.rfl

/-- Every index of the output array is in some point's block: row `r` in the block of point `r / 256`. -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 32 := N_0
  obtain ⟨t, ht⟩ : ∃ t : Fin cfg0.N, t.val = (i 0).val / 256 := ⟨⟨(i 0).val / 256, by rw [hN]; omega⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 4096 ≤ (i 1).val ∧ (i 1).val < win0_3.index t (1 : Fin 2) * 4096 + 4096
    omega

/-- The output array after the run is `gemmBias` of the three arrays as the region finds them. -/
theorem arr3_eq (c : Dev nD) :
    (dats (F := Ideal) m 0 c).arrAt 3 cfg0.N = gemmBias (V m c main_v0) (V m c main_v103) (V m c main_v104) :=
  (dats m 0 c).arrAt_eq_of_cover 3 (gemmBias (V m c main_v0) (V m c main_v103) (V m c main_v104))
    (fun t _ => flushed_eq m c t) cover

/-! ## The run -/

/-- After the region the host lays the output array out as 4 × 2048 × 4096: the same entries in the same row-major order. -/
theorem tail_eq (c : Dev nD) :
    Pipeline.afterTail₀ cfgs (dats m) 0 (V0 m) [hostOps1] c main_v106
      = shapeCast S4x2048x4096 (gemmBias (V m c main_v0) (V m c main_v103) (V m c main_v104))
          shapeCasts_S8192x4096_S4x2048x4096 := by
  unfold Pipeline.afterTail₀
  show StableHlo.after hostOps1 _ (Proc.devRef .tc main_v106) = _
  after_results
  have e : Pipeline.withArrays spec0 c (V0 m c) (fun w => (dats m 0 c).arrAt w cfg0.N)
        (Proc.devRef .tc (Pipeline.arrRef spec0 3))
      = gemmBias (V m c main_v0) (V m c main_v103) (V m c main_v104) :=
    (Pipeline.withArrays_arr spec0 launch0.win.arr_inj c _ _ 3).trans (arr3_eq m c)
  funext i
  show shapeCast S4x2048x4096 (Pipeline.withArrays spec0 c (V0 m c) (fun w => (dats m 0 c).arrAt w cfg0.N)
      (Proc.devRef .tc (Pipeline.arrRef spec0 3))) shapeCasts_S8192x4096_S4x2048x4096 i = _
  rw [e]

/-- The kernel's run: the result is `gemmBias` of the three arrays the region finds, reshaped; the arguments end as launched. -/
theorem run_value : θ_run (defs (F := Ideal)) (onTc (τ := τ) (main (F := Ideal))) ⟨m, fun _ => 0, ρ⟩ (fun r => ∀ c : Dev nD,
      r.2.mem ((c.tc : Thread nD τ).loc main_v106)
        = shapeCast S4x2048x4096 (gemmBias (V m c main_v0) (V m c main_v103) (V m c main_v104))
            shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v106 (Pipeline.mem_restRefs_of main_v106 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Blocks

end
-- ==== Proof.Bridge.lean ====
/-
  The algebra that joins the two programs.  One computes `Σ_d (T(x)_d / c) · w_d + bias`, the other
  `Σ_k x_k · (T(w)_k / c) + bias`, where `T` is the twelve-pass butterfly on vectors of length `4096 = 2 ^ 12` and
  `c = sqrt 4096 = 64`.  On finite (real) data they are equal because `T` is self-adjoint.
-/
import proofs.«141641_j90692529423063_2_alg».proof.Proof.Hadamard
import Idealize.ShloMosaic.PureOps.Ideal

noncomputable section

namespace Cert.Bridge

open Idealize.ShloMosaic

/-- The binary32 pattern `0x45800000` (sign 0, exponent 139 = 127 + 12, fraction 0) denotes `2 ^ 12 = 4096`. -/
theorem ofBits_4096 : Ideal.ofBits .f32 0x45800000#32 = ((4096 : ℝ) : EReal) := by
  simp [Ideal.ofBits, Ideal.ieee, -EReal.coe_mul]; norm_num

/-- The normalizing constant: the square root of `4096 = 64 ^ 2` is `64`. -/
theorem sqrt4096 : Ideal.sqrt (Ideal.ofBits .f32 0x45800000#32) = ((64 : ℝ) : EReal) := by
  rw [ofBits_4096, Ideal.sqrt_coe, if_neg (by norm_num)]
  congr 1
  rw [show (4096 : ℝ) = 64 ^ 2 by norm_num]
  exact Real.sqrt_sq (by norm_num)

/-- The embedding of the reals into the extended reals commutes with finite sums. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The two inner products agree.  On the left the transform (then the division by the nonzero real `cc`) is applied to
  `x` before pairing with `w`; on the right it is applied to `w` before pairing with `x`.  All terms are reals, so the
  quotients are products with `1 / cc`, the sums are sums of reals, `1 / cc` factors out of both, and what is left is the
  self-adjointness of the transform on vectors of length `4096 = 2 ^ 12`. -/
theorem inner_eq (x w : ℕ → ℝ) (cc : ℝ) (hcc : cc ≠ 0) (bias : EReal) :
    (∑ d : Fin 4096, Ideal.div (Cert.Hadamard.bf (fun i => ((x i : ℝ) : EReal)) 12 0 d.val) (cc : EReal) * ((w d.val : ℝ) : EReal)) + bias
    = (∑ k : Fin 4096, ((x k.val : ℝ) : EReal) * Ideal.div (Cert.Hadamard.bf (fun i => ((w i : ℝ) : EReal)) 12 0 k.val) (cc : EReal)) + bias := by
  have hL : ∀ d : Fin 4096,
      Ideal.div (Cert.Hadamard.bf (fun i => ((x i : ℝ) : EReal)) 12 0 d.val) (cc : EReal) * ((w d.val : ℝ) : EReal)
        = ((Cert.Hadamard.bf x 12 0 d.val * (1 / cc) * w d.val : ℝ) : EReal) := by
    intro d
    rw [Cert.Hadamard.bf_coe, Ideal.div_coe hcc, ← EReal.coe_mul, ← EReal.coe_mul]
  have hR : ∀ k : Fin 4096,
      ((x k.val : ℝ) : EReal) * Ideal.div (Cert.Hadamard.bf (fun i => ((w i : ℝ) : EReal)) 12 0 k.val) (cc : EReal)
        = ((x k.val * (Cert.Hadamard.bf w 12 0 k.val * (1 / cc)) : ℝ) : EReal) := by
    intro k
    rw [Cert.Hadamard.bf_coe, Ideal.div_coe hcc, ← EReal.coe_mul, ← EReal.coe_mul]
  have key : (∑ d : Fin 4096, (Cert.Hadamard.bf x 12 0 d.val * (1 / cc) * w d.val : ℝ))
      = ∑ k : Fin 4096, (x k.val * (Cert.Hadamard.bf w 12 0 k.val * (1 / cc)) : ℝ) := by
    rw [Fin.sum_univ_eq_sum_range (fun n => Cert.Hadamard.bf x 12 0 n * (1 / cc) * w n) 4096,
      Fin.sum_univ_eq_sum_range (fun n => x n * (Cert.Hadamard.bf w 12 0 n * (1 / cc))) 4096,
      show Finset.range 4096 = Finset.range (2 ^ 12) by norm_num]
    calc ∑ n ∈ Finset.range (2 ^ 12), Cert.Hadamard.bf x 12 0 n * (1 / cc) * w n
        = (1 / cc) * ∑ n ∈ Finset.range (2 ^ 12), Cert.Hadamard.bf x 12 0 n * w n := by
          rw [Finset.mul_sum]; exact Finset.sum_congr rfl (fun _ _ => by ring)
      _ = (1 / cc) * ∑ n ∈ Finset.range (2 ^ 12), x n * Cert.Hadamard.bf w 12 0 n := by
          rw [Cert.Hadamard.bf_adjoint x w 12]
      _ = ∑ n ∈ Finset.range (2 ^ 12), x n * (Cert.Hadamard.bf w 12 0 n * (1 / cc)) := by
          rw [Finset.mul_sum]; exact Finset.sum_congr rfl (fun _ _ => by ring)
  refine congrArg (· + bias) ?_
  rw [Finset.sum_congr rfl (fun d _ => hL d), Finset.sum_congr rfl (fun k _ => hR k), ← coe_sum, ← coe_sum, key]

end Cert.Bridge

end
-- ==== Proof.Final.lean ====
/-
  The two results are one array.

  At `(a, s, o)` the kernel's result is `(∑ k, x_k · ((T w)_k / r)) + b[o]` and the reference's `(∑ d, ((T x)_d / r) · w_d) + b[o]`,
  where `x` is row `(a, s)` of the data, `w` row `o` of the weights, `T` the twelve-pass butterfly and `r = sqrt 4096`.  The inputs
  being finite, both are the real number `(1 / r) ∑ ∑ x_i sgn(i, d) w_d` plus the bias: the transform moves from one factor of
  the inner product to the other because its sign matrix is symmetric (`Bridge.inner_eq`).
-/
import proofs.«141641_j90692529423063_2_alg».proof.Proof.RefValue
import proofs.«141641_j90692529423063_2_alg».proof.Proof.KernelHost
import proofs.«141641_j90692529423063_2_alg».proof.Proof.KernelBlocks
import proofs.«141641_j90692529423063_2_alg».proof.Proof.Bridge

noncomputable section

namespace Cert.Final

open Idealize.ShloMosaic Idealize.ShloMosaic.ValueIdx Cert.Hadamard
open Cert.KernelIdeal.Blocks Cert.KernelIdeal.HostSide Cert.ReferenceIdeal.RefValue

/-- The kernel's result (the product of the flattened data with the transformed, transposed weights, plus the bias, viewed
    as `[4, 2048, 4096]`) is the reference's, when every input entry is a real number. -/
theorem out_eq (X : FVec Ideal Cert.ReferenceIdeal.S4x2048x4096 .f32) (W : FVec Ideal Cert.ReferenceIdeal.S4096x4096 .f32)
    (b : FVec Ideal Cert.ReferenceIdeal.S4096 .f32)
    (hX : ∀ i, ∃ r : ℝ, X i = (r : EReal)) (hW : ∀ i, ∃ r : ℝ, W i = (r : EReal)) (hb : ∀ i, ∃ r : ℝ, b i = (r : EReal)) :
    shapeCast Cert.KernelIdeal.S4x2048x4096
        (gemmBias (shapeCast Cert.KernelIdeal.S8192x4096 X Cert.KernelIdeal.Gen.shapeCasts_S4x2048x4096_S8192x4096) (wtOf W)
          (shapeCast Cert.KernelIdeal.S1x4096 b Cert.KernelIdeal.Gen.shapeCasts_S4096_S1x4096))
        Cert.KernelIdeal.Gen.shapeCasts_S8192x4096_S4x2048x4096
      = refOut X W b := by
  choose X' hX' using hX
  choose W' hW' using hW
  funext j
  obtain ⟨a, s, o, rfl⟩ : ∃ (a : Fin 4) (s : Fin 2048) (o : Fin 4096), j = ix3 a s o := ⟨j 0, j 1, j 2, eq_ix3 j⟩
  have hr : a.val * 2048 + s.val < 8192 := by have := a.isLt; have := s.isLt; omega
  rw [refOut_apply]
  refine (shapeCast_apply _ _ (ix3 a s o) (ix2 (⟨a.val * 2048 + s.val, hr⟩ : Fin 8192) o) ?_).trans ?_
  · rw [Shape.rowMajor_val_two, Shape.rowMajor_val_three]
    show (a.val * 2048 + s.val) * 4096 + o.val = (a.val * 2048 + s.val) * 4096 + o.val
    rfl
  · show (∑ k : Fin 4096,
          shapeCast Cert.KernelIdeal.S8192x4096 X Cert.KernelIdeal.Gen.shapeCasts_S4x2048x4096_S8192x4096
              (ix2 (⟨a.val * 2048 + s.val, hr⟩ : Fin 8192) k) * wtOf W (ix2 k o))
        + shapeCast Cert.KernelIdeal.S1x4096 b Cert.KernelIdeal.Gen.shapeCasts_S4096_S1x4096 (ix2 (0 : Fin 1) o) = _
    rw [v104_apply]
    -- the two rows as real vectors indexed by the naturals
    have ex : rowX X a s = fun i => (((if h : i < 4096 then X' (ix3 a s ⟨i, h⟩) else 0 : ℝ)) : EReal) := by
      funext i
      unfold rowX
      by_cases h : i < 4096
      · rw [dif_pos h, dif_pos h, hX']
      · rw [dif_neg h, dif_neg h, EReal.coe_zero]
    have ew : rowW W o = fun i => (((if h : i < 4096 then W' (ix2 o ⟨i, h⟩) else 0 : ℝ)) : EReal) := by
      funext i
      unfold rowW
      by_cases h : i < 4096
      · rw [dif_pos h, dif_pos h, hW']
      · rw [dif_neg h, dif_neg h, EReal.coe_zero]
    have hl : ∀ k : Fin 4096,
        shapeCast Cert.KernelIdeal.S8192x4096 X Cert.KernelIdeal.Gen.shapeCasts_S4x2048x4096_S8192x4096
            (ix2 (⟨a.val * 2048 + s.val, hr⟩ : Fin 8192) k) * wtOf W (ix2 k o)
          = (((if h : k.val < 4096 then X' (ix3 a s ⟨k.val, h⟩) else 0 : ℝ)) : EReal)
            * Ideal.div (bf (fun i => (((if h : i < 4096 then W' (ix2 o ⟨i, h⟩) else 0 : ℝ)) : EReal)) 12 0 k.val)
                ((64 : ℝ) : EReal) := by
      intro k
      rw [v0_apply X a s k _ rfl, wtOf_apply, ew, Cert.Bridge.sqrt4096, dif_pos k.isLt, hX']
    have hrr : ∀ d : Fin 4096, Ideal.div (bf (rowX X a s) 12 0 d.val) rootD * W (ix2 o d)
          = Ideal.div (bf (fun i => (((if h : i < 4096 then X' (ix3 a s ⟨i, h⟩) else 0 : ℝ)) : EReal)) 12 0 d.val)
                ((64 : ℝ) : EReal)
            * (((if h : d.val < 4096 then W' (ix2 o ⟨d.val, h⟩) else 0 : ℝ)) : EReal) := by
      intro d
      rw [ex, show rootD = ((64 : ℝ) : EReal) from Cert.Bridge.sqrt4096, dif_pos d.isLt, hW']
    rw [Finset.sum_congr rfl (fun k _ => hl k), Finset.sum_congr rfl (fun d _ => hrr d)]
    exact (Cert.Bridge.inner_eq (fun i => if h : i < 4096 then X' (ix3 a s ⟨i, h⟩) else 0)
      (fun i => if h : i < 4096 then W' (ix2 o ⟨i, h⟩) else 0) 64 (by norm_num) (b (ix1 o))).symm

end Cert.Final

end
-- ==== Proof.lean ====
/-
  A linear layer applied to Hadamard-rotated data, with the rotation moved into the weights.

  The reference rotates every row `x` of the data by the normalized Walsh–Hadamard transform (twelve butterfly passes over
  vectors of length 4096, then a division by `sqrt 4096`) and applies the layer: `out[a, s, o] = (∑ d, (T x)_d / r · W[o, d]) + b[o]`.
  The kernel rotates the ROWS OF THE WEIGHTS instead, once, on the host, and then computes one matrix product block by block:
  `out[a, s, o] = (∑ k, x_k · ((T W[o, ·])_k / r)) + b[o]`.  The two agree because the transform is self-adjoint — its matrix of
  signs is symmetric (Proof/Hadamard.lean) — and because every input is finite, so the sums are sums of real numbers in which
  the factor `1 / r` and the order of summation may be moved (Proof/Bridge.lean).  At the ideal instance a change of float format
  is the identity, so the kernel's bf16 operands are the f32 values themselves.

  The modules: Stage (one pass read at an index), Transform (twelve passes: row `β` of the last table is the transform of row
  `β` of the first), RefValue (the reference's result as one function of the arguments, and that function at an index), RefRun
  and RefEval (the reference's run, evaluated pass by pass), KernelHost (the arrays the kernel's region finds, computed by the host operations before it), KernelBlocks (the
  output array from the blocks the grid points write back, and the reshape after the region), Finite (the precondition as
  "every entry is a real number"), Bridge (the algebra), Final (the two results are one array).
-/
import proofs.«141641_j90692529423063_2_alg».proof.Defs
import proofs.«141641_j90692529423063_2_alg».proof.Proof.Gen.Kernel
import proofs.«141641_j90692529423063_2_alg».proof.Proof.Gen.Kernel.Skeleton
import proofs.«141641_j90692529423063_2_alg».proof.Proof.Gen.Kernel.Launch
import proofs.«141641_j90692529423063_2_alg».proof.Proof.Gen.Kernel.Points
import proofs.«141641_j90692529423063_2_alg».proof.Proof.Gen.Kernel.Frame
import proofs.«141641_j90692529423063_2_alg».proof.Proof.Gen.KernelIdeal
import proofs.«141641_j90692529423063_2_alg».proof.Proof.Gen.KernelIdeal.Skeleton
import proofs.«141641_j90692529423063_2_alg».proof.Proof.Gen.KernelIdeal.Launch
import proofs.«141641_j90692529423063_2_alg».proof.Proof.Gen.KernelIdeal.Points
import proofs.«141641_j90692529423063_2_alg».proof.Proof.Gen.KernelIdeal.Frame
import proofs.«141641_j90692529423063_2_alg».proof.Proof.Gen.ReferenceIdeal
import proofs.«141641_j90692529423063_2_alg».proof.Proof.Gen.Pre_finite_inputs
import proofs.«141641_j90692529423063_2_alg».proof.Proof.Finite
import proofs.«141641_j90692529423063_2_alg».proof.Proof.RefEval
import proofs.«141641_j90692529423063_2_alg».proof.Proof.Final
import Idealize.ShloMosaic.Adequacy
import Idealize.ShloMosaic.Init

noncomputable section

namespace Cert.Proof

open Idealize.ShloMosaic Idealize.SL.Sem Cert.Kernel

/-- The word-level kernel runs, faults nowhere and leaves its arguments as they were: the generated frame. -/
theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.RefValue.run_refOut m ρ)

/-- Both idealized programs end with the same array: the kernel's blocks assemble to the product with the rotated weights
    plus the bias, the reference's operations compose to the layer of the rotated data, and on finite inputs these are one
    function of the arguments (`Final.out_eq`). -/
theorem algebraic :
    @Cert.algebraic_KernelIdeal_ReferenceIdeal Cert.KernelIdeal.Gen.facts Cert.ReferenceIdeal.Gen.facts Cert.Pre_finite_inputs.Gen.facts := by
  intro m ρ m' ρ' hpre hagree
  refine ⟨_, Cert.KernelIdeal.Blocks.run_value m ρ, ?_⟩
  refine (θ_run Cert.ReferenceIdeal.defs _ _).mono (fun _ h c => ⟨(h c).1.trans ?_, (h c).2⟩)
    (Cert.ReferenceIdeal.RefValue.run_refOut m' ρ')
  obtain ⟨hX, hW, hb⟩ := Cert.FiniteInputs.real_of_pre _ _ _ (hpre c)
  rw [(hagree c).1, (hagree c).2.1, (hagree c).2.2, Cert.KernelIdeal.HostSide.V_v0 m c, Cert.KernelIdeal.HostSide.V_v103 m c,
    Cert.KernelIdeal.HostSide.V_v104 m c]
  exact (Cert.Final.out_eq _ _ _ hX hW hb).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
